-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S64x128 : Shape := ⟨2, ![64, 128]⟩
abbrev S64 : Shape := ⟨1, ![64]⟩
abbrev S64x64 : Shape := ⟨2, ![64, 64]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64x64 .f32) (main_arg6 : FVec F S64 .f32) (main_arg7 : FVec F S64x64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S40000x128 .f32) (main_arg1 : IVec S2x640000 32) (main_arg2 : FVec F S64x128 .f32) (main_arg3 : FVec F S64 .f32) (main_arg4 : FVec F S64x128 .f32) (main_arg5 : FVec F S64x64 .f32) (main_arg6 : FVec F S64 .f32) (main_arg7 : FVec F S64x64 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_v13 main_v16
-- ==== Kernel.lean ====
abbrev S40000x128 : Shape := ⟨2, ![40000, 128]⟩
abbrev S2x640000 : Shape := ⟨2, ![2, 640000]⟩
abbrev S64x128 : Shape := ⟨2, ![64, 128]⟩
abbrev S64 : Shape := ⟨1, ![64]⟩
abbrev S64x64 : Shape := ⟨2, ![64, 64]⟩
abbrev S1x640000 : Shape := ⟨2, ![1, 640000]⟩
abbrev S640000 : Shape := ⟨1, ![640000]⟩
abbrev S_ : Shape := ⟨0, ![]⟩
abbrev S40000 : Shape := ⟨1, ![40000]⟩
abbrev S640000x1 : Shape := ⟨2, ![640000, 1]⟩
abbrev S40000x1 : Shape := ⟨2, ![40000, 1]⟩
abbrev S40000x64 : Shape := ⟨2, ![40000, 64]⟩
abbrev S5000x128 : Shape := ⟨2, ![5000, 128]⟩
abbrev S5000x64 : Shape := ⟨2, ![5000, 64]⟩
abbrev S640000x64 : Shape := ⟨2, ![640000, 64]⟩
abbrev S1x64 : Shape := ⟨2, ![1, 64]⟩
abbrev S5000x1 : Shape := ⟨2, ![5000, 1]⟩

abbrev nBuf : Space → Nat
  | .hbm => 58
  | .vmem => 30
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S_, .i32⟩
  | .hbm, ⟨15, _⟩ => ⟨S40000, .i32⟩
  | .hbm, ⟨16, _⟩ => ⟨S640000x1, .i32⟩
  | .hbm, ⟨17, _⟩ => ⟨S40000, .i32⟩
  | .hbm, ⟨18, _⟩ => ⟨S40000, .f32⟩
  | .hbm, ⟨19, _⟩ => ⟨S_, .f32⟩
  | .hbm, ⟨20, _⟩ => ⟨S40000, .f32⟩
  | .hbm, ⟨21, _⟩ => ⟨S40000, .f32⟩
  | .hbm, ⟨22, _⟩ => ⟨S_, .f32⟩
  | .hbm, ⟨23, _⟩ => ⟨S40000, .f32⟩
  | .hbm, ⟨24, _⟩ => ⟨S40000, .f32⟩
  | .hbm, ⟨25, _⟩ => ⟨S40000x1, .f32⟩
  | .hbm, ⟨26, _⟩ => ⟨S40000x64, .f32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000x64, .f32⟩
  | .hbm, ⟨36, _⟩ => ⟨S_, .f32⟩
  | .hbm, ⟨37, _⟩ => ⟨S40000x64, .f32⟩
  | .hbm, ⟨38, _⟩ => ⟨S640000x1, .i32⟩
  | .hbm, ⟨39, _⟩ => ⟨S40000x64, .f32⟩
  | .hbm, ⟨40, _⟩ => ⟨S1x64, .f32⟩
  | .hbm, ⟨41, _⟩ => ⟨S40000x64, .f32⟩
  | .hbm, ⟨42, _⟩ => ⟨S40000x64, .f32⟩
  | .hbm, ⟨43, _⟩ => ⟨S_, .i32⟩
  | .hbm, ⟨44, _⟩ => ⟨S640000, .i32⟩
  | .hbm, ⟨45, _⟩ => ⟨S640000, .i1⟩
  | .hbm, ⟨46, _⟩ => ⟨S_, .i32⟩
  | .hbm, ⟨47, _⟩ => ⟨S640000, .i32⟩
  | .hbm, ⟨48, _⟩ => ⟨S640000, .i32⟩
  | .hbm, ⟨49, _⟩ => ⟨S640000, .i32⟩
  | .hbm, ⟨50, _⟩ => ⟨S640000x1, .i32⟩
  | .hbm, ⟨51, _⟩ => ⟨S640000x64, .f32⟩
  | .hbm, ⟨52, _⟩ => ⟨S_, .f32⟩
  | .hbm, ⟨53, _⟩ => ⟨S40000x64, .f32⟩
  | .hbm, ⟨54, _⟩ => ⟨S640000x1, .i32⟩
  | .hbm, ⟨55, _⟩ => ⟨S40000x64, .f32⟩
  | .hbm, ⟨56, _⟩ => ⟨S1x64, .f32⟩
  | .hbm, ⟨57, _⟩ => ⟨S40000x64, .f32⟩
  | .local _ .vmem, ⟨0, _⟩ => ⟨S5000x128, .f32⟩
  | .local _ .vmem, ⟨1, _⟩ => ⟨S5000x128, .f32⟩
  | .local _ .vmem, ⟨2, _⟩ => ⟨S64x128, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x1, .f32⟩
  | .local _ .vmem, ⟨8, _⟩ => ⟨S5000x1, .f32⟩
  | .local _ .vmem, ⟨9, _⟩ => ⟨S5000x128, .f32⟩
  | .local _ .vmem, ⟨10, _⟩ => ⟨S5000x128, .f32⟩
  | .local _ .vmem, ⟨11, _⟩ => ⟨S64x128, .f32⟩
  | .local _ .vmem, ⟨12, _⟩ => ⟨S1x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x1, .f32⟩
  | .local _ .vmem, ⟨23, _⟩ => ⟨S5000x1, .f32⟩
  | .local _ .vmem, ⟨24, _⟩ => ⟨S5000x64, .f32⟩
  | .local _ .vmem, ⟨25, _⟩ => ⟨S5000x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem4_0 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  shapeCasts_S40000_S40000x1 : S40000.ShapeCasts S40000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x64_S5000x64_0_0 : ∀ a, (![0, 0] : Fin 2 → Nat) a + S5000x64.size a ≤ S5000x64.size a
  h_S5000x64 : 0 < S5000x64.numel
  bcast_S_S40000x64 : S_.BroadcastsInDim S40000x64 (![] : Fin 0 → Fin S40000x64.rank)
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  scatter_S40000_S640000x1_S640000_n_0_0_1_wf : ScatterDims.WF S40000 S640000x1 S640000 [] [0] [0] 1
  dot_S5000x128_S64x128_S5000x64_1_1_0_0_n_n_wf : DotDims.WF S5000x128 S64x128 S5000x64 [1] [1] [0] [0] [] []
  gather_S40000x64_S640000x1_S640000x64_1_0_n_n_0_1_164_wf : GatherDims.WF S40000x64 S640000x1 S640000x64 [1] [0] [] [0] [] 1 ![1, 64]
  scatter_S40000x64_S640000x1_S640000x64_1_0_0_1_wf : ScatterDims.WF S40000x64 S640000x1 S640000x64 [1] [0] [0] 1
  dot_S5000x64_S64x64_S5000x64_1_1_0_0_n_n_wf : DotDims.WF S5000x64 S64x64 S5000x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S40000x128.size a
  hwx0_0 : ∀ i : grid0.Coords, EltTy.bits .f32 = 32 ∨ (Rect.block (s := S40000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S40000x64.size a
  hwx0_2 : ∀ i : grid0.Coords, EltTy.bits .f32 = 32 ∨ (Rect.block (s := S40000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S40000x64.size a
  hwx1_0 : ∀ i : grid1.Coords, EltTy.bits .f32 = 32 ∨ (Rect.block (s := S40000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S40000x1.size a
  hwx1_1 : ∀ i : grid1.Coords, EltTy.bits .f32 = 32 ∨ (Rect.block (s := S40000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S40000x128.size a
  hwx1_2 : ∀ i : grid1.Coords, EltTy.bits .f32 = 32 ∨ (Rect.block (s := S40000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S40000x64.size a
  hwx1_5 : ∀ i : grid1.Coords, EltTy.bits .f32 = 32 ∨ (Rect.block (s := S40000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S40000x64.size a
  hwx2_0 : ∀ i : grid2.Coords, EltTy.bits .f32 = 32 ∨ (Rect.block (s := S40000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S40000x64.size a
  hwx2_2 : ∀ i : grid2.Coords, EltTy.bits .f32 = 32 ∨ (Rect.block (s := S40000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S40000x64.size a
  hwx3_0 : ∀ i : grid3.Coords, EltTy.bits .f32 = 32 ∨ (Rect.block (s := S40000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S40000x1.size a
  hwx3_1 : ∀ i : grid3.Coords, EltTy.bits .f32 = 32 ∨ (Rect.block (s := S40000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S40000x64.size a
  hwx3_2 : ∀ i : grid3.Coords, EltTy.bits .f32 = 32 ∨ (Rect.block (s := S40000x64) S5000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S40000x64.size a
  hwx3_5 : ∀ i : grid3.Coords, EltTy.bits .f32 = 32 ∨ (Rect.block (s := S40000x64) S5000x64.size (cc3_transform_5 i) (hinb3_5 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S5000x128_S64x128_S5000x64_1_1_0_0_n_n : DotDims S5000x128 S64x128 S5000x64 where
  lhsContracting := [1]
  rhsContracting := [1]
  lhsNonContracting := [0]
  rhsNonContracting := [0]
  lhsBatch := []
  rhsBatch := []
  wf := dot_S5000x128_S64x128_S5000x64_1_1_0_0_n_n_wf
def gather_S40000x64_S640000x1_S640000x64_1_0_n_n_0_1_164 : GatherDims S40000x64 S640000x1 S640000x64 where
  offsetDims := [1]
  collapsedSliceDims := [0]
  operandBatchingDims := []
  startIndicesBatchingDims := []
  startIndexMap := [0]
  indexVectorDim := 1
  sliceSizes := ![1, 64]
  wf := gather_S40000x64_S640000x1_S640000x64_1_0_n_n_0_1_164_wf
def scatter_S40000x64_S640000x1_S640000x64_1_0_0_1 : ScatterDims S40000x64 S640000x1 S640000x64 where
  updateWindowDims := [1]
  insertedWindowDims := [0]
  scatterDimsToOperandDims := [0]
  indexVectorDim := 1
  wf := scatter_S40000x64_S640000x1_S640000x64_1_0_0_1_wf
def dot_S5000x64_S64x64_S5000x64_1_1_0_0_n_n : DotDims S5000x64 S64x64 S5000x64 where
  lhsContracting := [1]
  rhsContracting := [1]
  lhsNonContracting := [0]
  rhsNonContracting := [0]
  lhsBatch := []
  rhsBatch := []
  wf := dot_S5000x64_S64x64_S5000x64_1_1_0_0_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v24) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v26) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v37) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v26) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg7) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v38) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v39) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S64x128 : Shape := ⟨2, ![64, 128]⟩
abbrev S64 : Shape := ⟨1, ![64]⟩
abbrev S64x64 : Shape := ⟨2, ![64, 64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S128x64 : Shape := ⟨2, ![128, 64]⟩
abbrev S40000x64 : Shape := ⟨2, ![40000, 64]⟩
abbrev S1x64 : Shape := ⟨2, ![1, 64]⟩
abbrev S640000x64 : Shape := ⟨2, ![640000, 64]⟩

abbrev nBuf : Space → Nat
  | .hbm => 85
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S40000x128, .f32⟩
  | .hbm, ⟨23, _⟩ => ⟨S640000x1, .i32⟩
  | .hbm, ⟨24, _⟩ => ⟨S40000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S40000, .f32⟩
  | .hbm, ⟨29, _⟩ => ⟨S640000x1, .i32⟩
  | .hbm, ⟨30, _⟩ => ⟨S40000, .f32⟩
  | .hbm, ⟨31, _⟩ => ⟨S_, .f32⟩
  | .hbm, ⟨32, _⟩ => ⟨S40000, .f32⟩
  | .hbm, ⟨33, _⟩ => ⟨S40000, .f32⟩
  | .hbm, ⟨34, _⟩ => ⟨S40000x1, .f32⟩
  | .hbm, ⟨35, _⟩ => ⟨S40000x128, .f32⟩
  | .hbm, ⟨36, _⟩ => ⟨S40000x128, .f32⟩
  | .hbm, ⟨37, _⟩ => ⟨S128x64, .f32⟩
  | .hbm, ⟨38, _⟩ => ⟨S40000x64, .f32⟩
  | .hbm, ⟨39, _⟩ => ⟨S1x64, .f32⟩
  | .hbm, ⟨40, _⟩ => ⟨S40000x64, .f32⟩
  | .hbm, ⟨41, _⟩ => ⟨S40000x64, .f32⟩
  | .hbm, ⟨42, _⟩ => ⟨S128x64, .f32⟩
  | .hbm, ⟨43, _⟩ => ⟨S40000x64, .f32⟩
  | .hbm, ⟨44, _⟩ => ⟨S40000x64, .f32⟩
  | .hbm, ⟨45, _⟩ => ⟨S_, .f32⟩
  | .hbm, ⟨46, _⟩ => ⟨S40000x64, .f32⟩
  | .hbm, ⟨47, _⟩ => ⟨S40000x64, .f32⟩
  | .hbm, ⟨48, _⟩ => ⟨S1x640000, .i32⟩
  | .hbm, ⟨49, _⟩ => ⟨S640000, .i32⟩
  | .hbm, ⟨50, _⟩ => ⟨S1x640000, .i32⟩
  | .hbm, ⟨51, _⟩ => ⟨S640000, .i32⟩
  | .hbm, ⟨52, _⟩ => ⟨S_, .i32⟩
  | .hbm, ⟨53, _⟩ => ⟨S640000, .i32⟩
  | .hbm, ⟨54, _⟩ => ⟨S640000, .i1⟩
  | .hbm, ⟨55, _⟩ => ⟨S_, .i32⟩
  | .hbm, ⟨56, _⟩ => ⟨S640000, .i32⟩
  | .hbm, ⟨57, _⟩ => ⟨S640000, .i32⟩
  | .hbm, ⟨58, _⟩ => ⟨S640000, .i32⟩
  | .hbm, ⟨59, _⟩ => ⟨S640000x1, .i32⟩
  | .hbm, ⟨60, _⟩ => ⟨S640000x64, .f32⟩
  | .hbm, ⟨61, _⟩ => ⟨S_, .f32⟩
  | .hbm, ⟨62, _⟩ => ⟨S40000x64, .f32⟩
  | .hbm, ⟨63, _⟩ => ⟨S640000x1, .i32⟩
  | .hbm, ⟨64, _⟩ => ⟨S40000x64, .f32⟩
  | .hbm, ⟨65, _⟩ => ⟨S_, .f32⟩
  | .hbm, ⟨66, _⟩ => ⟨S640000, .f32⟩
  | .hbm, ⟨67, _⟩ => ⟨S_, .f32⟩
  | .hbm, ⟨68, _⟩ => ⟨S40000, .f32⟩
  | .hbm, ⟨69, _⟩ => ⟨S640000x1, .i32⟩
  | .hbm, ⟨70, _⟩ => ⟨S40000, .f32⟩
  | .hbm, ⟨71, _⟩ => ⟨S_, .f32⟩
  | .hbm, ⟨72, _⟩ => ⟨S40000, .f32⟩
  | .hbm, ⟨73, _⟩ => ⟨S40000, .f32⟩
  | .hbm, ⟨74, _⟩ => ⟨S40000x1, .f32⟩
  | .hbm, ⟨75, _⟩ => ⟨S40000x64, .f32⟩
  | .hbm, ⟨76, _⟩ => ⟨S40000x64, .f32⟩
  | .hbm, ⟨77, _⟩ => ⟨S64x64, .f32⟩
  | .hbm, ⟨78, _⟩ => ⟨S40000x64, .f32⟩
  | .hbm, ⟨79, _⟩ => ⟨S1x64, .f32⟩
  | .hbm, ⟨80, _⟩ => ⟨S40000x64, .f32⟩
  | .hbm, ⟨81, _⟩ => ⟨S40000x64, .f32⟩
  | .hbm, ⟨82, _⟩ => ⟨S64x64, .f32⟩
  | .hbm, ⟨83, _⟩ => ⟨S40000x64, .f32⟩
  | .hbm, ⟨84, _⟩ => ⟨S40000x64, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_4 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  transposes_S64x128_S128x64_1_0 : S64x128.Transposes [1, 0] S128x64
  bcast_S64_S1x64_1 : S64.BroadcastsInDim S1x64 (![1] : Fin 1 → Fin S1x64.rank)
  bcast_S1x64_S40000x64_0_1 : S1x64.BroadcastsInDim S40000x64 (![0, 1] : Fin 2 → Fin S40000x64.rank)
  bcast_S_S40000x64 : S_.BroadcastsInDim S40000x64 (![] : Fin 0 → Fin S40000x64.rank)
  bcast_S40000x1_S40000x64_0_1 : S40000x1.BroadcastsInDim S40000x64 (![0, 1] : Fin 2 → Fin S40000x64.rank)
  transposes_S64x64_S64x64_1_0 : S64x64.Transposes [1, 0] S64x64
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x128_S128x64_S40000x64_1_0_0_1_n_n_wf : DotDims.WF S40000x128 S128x64 S40000x64 [1] [0] [0] [1] [] []
  gather_S40000x64_S640000x1_S640000x64_1_0_n_n_0_1_164_wf : GatherDims.WF S40000x64 S640000x1 S640000x64 [1] [0] [] [0] [] 1 ![1, 64]
  scatter_S40000x64_S640000x1_S640000x64_1_0_0_1_wf : ScatterDims.WF S40000x64 S640000x1 S640000x64 [1] [0] [0] 1
  dot_S40000x64_S64x64_S40000x64_1_0_0_1_n_n_wf : DotDims.WF S40000x64 S64x64 S40000x64 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x128_S128x64_S40000x64_1_0_0_1_n_n : DotDims S40000x128 S128x64 S40000x64 where
  lhsContracting := [1]
  rhsContracting := [0]
  lhsNonContracting := [0]
  rhsNonContracting := [1]
  lhsBatch := []
  rhsBatch := []
  wf := dot_S40000x128_S128x64_S40000x64_1_0_0_1_n_n_wf
def gather_S40000x64_S640000x1_S640000x64_1_0_n_n_0_1_164 : GatherDims S40000x64 S640000x1 S640000x64 where
  offsetDims := [1]
  collapsedSliceDims := [0]
  operandBatchingDims := []
  startIndicesBatchingDims := []
  startIndexMap := [0]
  indexVectorDim := 1
  sliceSizes := ![1, 64]
  wf := gather_S40000x64_S640000x1_S640000x64_1_0_n_n_0_1_164_wf
def scatter_S40000x64_S640000x1_S640000x64_1_0_0_1 : ScatterDims S40000x64 S640000x1 S640000x64 where
  updateWindowDims := [1]
  insertedWindowDims := [0]
  scatterDimsToOperandDims := [0]
  indexVectorDim := 1
  wf := scatter_S40000x64_S640000x1_S640000x64_1_0_0_1_wf
def dot_S40000x64_S64x64_S40000x64_1_0_0_1_n_n : DotDims S40000x64 S64x64 S40000x64 where
  lhsContracting := [1]
  rhsContracting := [0]
  lhsNonContracting := [0]
  rhsNonContracting := [1]
  lhsBatch := []
  rhsBatch := []
  wf := dot_S40000x64_S64x64_S40000x64_1_0_0_1_n_n_wf

class Facts : Prop extends Facts₀ where

variable [Facts]
-- ==== Proof.KRun.lean ====
/-
  The idealized kernel's run with its RESULT named. The program is four tiled regions among three stretches of
  host operations; the contents of every buffer at each boundary are a fold from the launch memory (`Gen.W0` … `Gen.W7`).
  Every weakly fair execution terminates without a fault, the argument arrays end as launched, and the result
  array `main_v39` ends at the last boundary's contents `Gen.W7 m ρ c main_v39`: the launch over the program's
  segments, the last thread state read against the final memory.
-/
import proofs.«162418_j19636590477698_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination, no fault, the result array at the last boundary's contents, the arguments as launched. -/
theorem run : θ_run defs (onTc (τ := τ) (main (F := F))) ⟨m, fun _ => 0, ρ⟩ (fun r => ∀ c : Dev nD,
      r.2.mem ((c.tc : Thread nD τ).loc main_v39) = W7 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v39 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.RunValue

end
-- ==== Proof.KHost.lean ====
/-
  The idealized kernel's buffers between its regions.

  The contents of every buffer at each boundary of the program are a fold from the launch memory. A buffer that a
  stretch of host operations does not write, and that a region does not produce, holds at the later boundary what it held
  at the earlier one; the buffers a stretch does write are read off its operations. This module walks each buffer the
  regions consume back to where it was made: the arguments to the launch memory, the edge list's two rows and the column of
  reciprocal counts to the first stretch, the hidden features to the second region.
-/
import proofs.«162418_j19636590477698_2_alg».proof.Proof.Gen.KernelIdeal.Frame
import Idealize.ShloMosaic.Lib.StableHlo.Run
import Idealize.ShloMosaic.PureOps.Ideal

set_option maxRecDepth 16384

noncomputable section

namespace Cert.KernelIdeal.HostValue

open Idealize.ShloMosaic Idealize.ShloMosaic.TcCoe Idealize.SL.Sem Idealize.ShloMosaic.StableHlo
open Idealize.ShloMosaic.Pipeline (Dat Cfg Window)
open Cert.KernelIdeal Cert.KernelIdeal.Gen

variable (m : (ℓ : Loc nD τ sig) → Buf (Elt Ideal) ℓ) (ρ : Dev nD → PrngReg)

/-- A stretch of host operations leaves a buffer none of them writes as it was. -/
syntax "host_keeps " ident : tactic
macro_rules
  | `(tactic| host_keeps $ops) => `(tactic|
      exact StableHlo.after_of_forall_not_mem _ _ (List.forall_iff_forall_mem.mp (by
        simp only [$ops:ident, List.flatten_cons, List.flatten_nil, List.append_nil, List.cons_append,
          List.nil_append, List.Forall, StableHlo.nullary_writes, StableHlo.unary_writes, StableHlo.binary_writes,
          StableHlo.ternary_writes, StableHlo.quaternary_writes, StableHlo.reshape_writes, StableHlo.binaryIndexed_writes,
          Finset.mem_singleton]
        repeat' apply And.intro
        all_goals exact StableHlo.devRef_ne_of_ne (by decide))))

/-! ## The arguments at the boundaries where they are consumed -/

theorem W1_arg0 (c : Dev nD) : W1 m ρ c (Proc.devRef .tc main_arg0) = W0 m ρ c (Proc.devRef .tc main_arg0) := by
  show StableHlo.after hostOps0 (W0 m ρ c) (Proc.devRef .tc main_arg0) = _
  host_keeps hostOps0
theorem W1_arg2 (c : Dev nD) : W1 m ρ c (Proc.devRef .tc main_arg2) = W0 m ρ c (Proc.devRef .tc main_arg2) := by
  show StableHlo.after hostOps0 (W0 m ρ c) (Proc.devRef .tc main_arg2) = _
  host_keeps hostOps0
theorem W1_arg3 (c : Dev nD) : W1 m ρ c (Proc.devRef .tc main_arg3) = W0 m ρ c (Proc.devRef .tc main_arg3) := by
  show StableHlo.after hostOps0 (W0 m ρ c) (Proc.devRef .tc main_arg3) = _
  host_keeps hostOps0
theorem W1_arg4 (c : Dev nD) : W1 m ρ c (Proc.devRef .tc main_arg4) = W0 m ρ c (Proc.devRef .tc main_arg4) := by
  show StableHlo.after hostOps0 (W0 m ρ c) (Proc.devRef .tc main_arg4) = _
  host_keeps hostOps0
theorem W1_arg5 (c : Dev nD) : W1 m ρ c (Proc.devRef .tc main_arg5) = W0 m ρ c (Proc.devRef .tc main_arg5) := by
  show StableHlo.after hostOps0 (W0 m ρ c) (Proc.devRef .tc main_arg5) = _
  host_keeps hostOps0
theorem W1_arg6 (c : Dev nD) : W1 m ρ c (Proc.devRef .tc main_arg6) = W0 m ρ c (Proc.devRef .tc main_arg6) := by
  show StableHlo.after hostOps0 (W0 m ρ c) (Proc.devRef .tc main_arg6) = _
  host_keeps hostOps0
theorem W1_arg7 (c : Dev nD) : W1 m ρ c (Proc.devRef .tc main_arg7) = W0 m ρ c (Proc.devRef .tc main_arg7) := by
  show StableHlo.after hostOps0 (W0 m ρ c) (Proc.devRef .tc main_arg7) = _
  host_keeps hostOps0
theorem W2_v13 (c : Dev nD) : W2 m ρ c (Proc.devRef .tc main_v13) = W1 m ρ c (Proc.devRef .tc main_v13) :=
  W2_of_ne m ρ c main_v13 (by decide)
theorem W2_v1 (c : Dev nD) : W2 m ρ c (Proc.devRef .tc main_v1) = W1 m ρ c (Proc.devRef .tc main_v1) :=
  W2_of_ne m ρ c main_v1 (by decide)
theorem W2_v3 (c : Dev nD) : W2 m ρ c (Proc.devRef .tc main_v3) = W1 m ρ c (Proc.devRef .tc main_v3) :=
  W2_of_ne m ρ c main_v3 (by decide)
theorem W2_arg3 (c : Dev nD) : W2 m ρ c (Proc.devRef .tc main_arg3) = W1 m ρ c (Proc.devRef .tc main_arg3) :=
  W2_of_ne m ρ c main_arg3 (by decide)
theorem W2_arg4 (c : Dev nD) : W2 m ρ c (Proc.devRef .tc main_arg4) = W1 m ρ c (Proc.devRef .tc main_arg4) :=
  W2_of_ne m ρ c main_arg4 (by decide)
theorem W2_arg5 (c : Dev nD) : W2 m ρ c (Proc.devRef .tc main_arg5) = W1 m ρ c (Proc.devRef .tc main_arg5) :=
  W2_of_ne m ρ c main_arg5 (by decide)
theorem W2_arg6 (c : Dev nD) : W2 m ρ c (Proc.devRef .tc main_arg6) = W1 m ρ c (Proc.devRef .tc main_arg6) :=
  W2_of_ne m ρ c main_arg6 (by decide)
theorem W2_arg7 (c : Dev nD) : W2 m ρ c (Proc.devRef .tc main_arg7) = W1 m ρ c (Proc.devRef .tc main_arg7) :=
  W2_of_ne m ρ c main_arg7 (by decide)
theorem W2_arg0 (c : Dev nD) : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))
theorem W3_v13 (c : Dev nD) : W3 m ρ c (Proc.devRef .tc main_v13) = W2 m ρ c (Proc.devRef .tc main_v13) := by
  show StableHlo.after hostOps1 (W2 m ρ c) (Proc.devRef .tc main_v13) = _
  host_keeps hostOps1
theorem W3_arg0 (c : Dev nD) : W3 m ρ c (Proc.devRef .tc main_arg0) = W2 m ρ c (Proc.devRef .tc main_arg0) := by
  show StableHlo.after hostOps1 (W2 m ρ c) (Proc.devRef .tc main_arg0) = _
  host_keeps hostOps1
theorem W3_arg4 (c : Dev nD) : W3 m ρ c (Proc.devRef .tc main_arg4) = W2 m ρ c (Proc.devRef .tc main_arg4) := by
  show StableHlo.after hostOps1 (W2 m ρ c) (Proc.devRef .tc main_arg4) = _
  host_keeps hostOps1
theorem W3_v1 (c : Dev nD) : W3 m ρ c (Proc.devRef .tc main_v1) = W2 m ρ c (Proc.devRef .tc main_v1) := by
  show StableHlo.after hostOps1 (W2 m ρ c) (Proc.devRef .tc main_v1) = _
  host_keeps hostOps1
theorem W3_v3 (c : Dev nD) : W3 m ρ c (Proc.devRef .tc main_v3) = W2 m ρ c (Proc.devRef .tc main_v3) := by
  show StableHlo.after hostOps1 (W2 m ρ c) (Proc.devRef .tc main_v3) = _
  host_keeps hostOps1
theorem W3_arg5 (c : Dev nD) : W3 m ρ c (Proc.devRef .tc main_arg5) = W2 m ρ c (Proc.devRef .tc main_arg5) := by
  show StableHlo.after hostOps1 (W2 m ρ c) (Proc.devRef .tc main_arg5) = _
  host_keeps hostOps1
theorem W3_arg6 (c : Dev nD) : W3 m ρ c (Proc.devRef .tc main_arg6) = W2 m ρ c (Proc.devRef .tc main_arg6) := by
  show StableHlo.after hostOps1 (W2 m ρ c) (Proc.devRef .tc main_arg6) = _
  host_keeps hostOps1
theorem W3_arg7 (c : Dev nD) : W3 m ρ c (Proc.devRef .tc main_arg7) = W2 m ρ c (Proc.devRef .tc main_arg7) := by
  show StableHlo.after hostOps1 (W2 m ρ c) (Proc.devRef .tc main_arg7) = _
  host_keeps hostOps1
theorem W4_v1 (c : Dev nD) : W4 m ρ c (Proc.devRef .tc main_v1) = W3 m ρ c (Proc.devRef .tc main_v1) :=
  W4_of_ne m ρ c main_v1 (by decide)
theorem W4_v3 (c : Dev nD) : W4 m ρ c (Proc.devRef .tc main_v3) = W3 m ρ c (Proc.devRef .tc main_v3) :=
  W4_of_ne m ρ c main_v3 (by decide)
theorem W4_arg5 (c : Dev nD) : W4 m ρ c (Proc.devRef .tc main_arg5) = W3 m ρ c (Proc.devRef .tc main_arg5) :=
  W4_of_ne m ρ c main_arg5 (by decide)
theorem W4_arg6 (c : Dev nD) : W4 m ρ c (Proc.devRef .tc main_arg6) = W3 m ρ c (Proc.devRef .tc main_arg6) :=
  W4_of_ne m ρ c main_arg6 (by decide)
theorem W4_arg7 (c : Dev nD) : W4 m ρ c (Proc.devRef .tc main_arg7) = W3 m ρ c (Proc.devRef .tc main_arg7) :=
  W4_of_ne m ρ c main_arg7 (by decide)
theorem W4_v13 (c : Dev nD) : W4 m ρ c (Proc.devRef .tc main_v13) = W3 m ρ c (Proc.devRef .tc main_v13) :=
  (W4_arr m ρ c 1).trans (((dat1 (V3 m ρ) c).arrAt_in 1 rfl _).trans (A_eq1 (V3 m ρ) c 1))
theorem W5_v13 (c : Dev nD) : W5 m ρ c (Proc.devRef .tc main_v13) = W4 m ρ c (Proc.devRef .tc main_v13) :=
  W5_of_ne m ρ c main_v13 (by decide)
theorem W5_v1 (c : Dev nD) : W5 m ρ c (Proc.devRef .tc main_v1) = W4 m ρ c (Proc.devRef .tc main_v1) :=
  W5_of_ne m ρ c main_v1 (by decide)
theorem W5_v3 (c : Dev nD) : W5 m ρ c (Proc.devRef .tc main_v3) = W4 m ρ c (Proc.devRef .tc main_v3) :=
  W5_of_ne m ρ c main_v3 (by decide)
theorem W5_arg6 (c : Dev nD) : W5 m ρ c (Proc.devRef .tc main_arg6) = W4 m ρ c (Proc.devRef .tc main_arg6) :=
  W5_of_ne m ρ c main_arg6 (by decide)
theorem W5_arg7 (c : Dev nD) : W5 m ρ c (Proc.devRef .tc main_arg7) = W4 m ρ c (Proc.devRef .tc main_arg7) :=
  W5_of_ne m ρ c main_arg7 (by decide)
theorem W5_v26 (c : Dev nD) : W5 m ρ c (Proc.devRef .tc main_v26) = W4 m ρ c (Proc.devRef .tc main_v26) :=
  (W5_arr m ρ c 0).trans (((dat2 (V4 m ρ) c).arrAt_in 0 rfl _).trans (A_eq2 (V4 m ρ) c 0))
theorem W6_v13 (c : Dev nD) : W6 m ρ c (Proc.devRef .tc main_v13) = W5 m ρ c (Proc.devRef .tc main_v13) := by
  show StableHlo.after hostOps3 (W5 m ρ c) (Proc.devRef .tc main_v13) = _
  host_keeps hostOps3
theorem W6_v26 (c : Dev nD) : W6 m ρ c (Proc.devRef .tc main_v26) = W5 m ρ c (Proc.devRef .tc main_v26) := by
  show StableHlo.after hostOps3 (W5 m ρ c) (Proc.devRef .tc main_v26) = _
  host_keeps hostOps3
theorem W6_arg7 (c : Dev nD) : W6 m ρ c (Proc.devRef .tc main_arg7) = W5 m ρ c (Proc.devRef .tc main_arg7) := by
  show StableHlo.after hostOps3 (W5 m ρ c) (Proc.devRef .tc main_arg7) = _
  host_keeps hostOps3

/-! ## The edge list's two columns and the column of reciprocal counts, as functions of the edge list -/

/-- Row `r` of the edge list as a vector. -/
def edgeRow0 (a1 : IVec S2x640000 32) : IVec S640000 32 :=
  shapeCast S640000 (extractStridedSlice S1x640000 ![0, 0] a1 slices_S2x640000_S1x640000_0_0) shapeCasts_S1x640000_S640000
def edgeRow1 (a1 : IVec S2x640000 32) : IVec S640000 32 :=
  shapeCast S640000 (extractStridedSlice S1x640000 ![1, 0] a1 slices_S2x640000_S1x640000_1_0) shapeCasts_S1x640000_S640000

/-- The source column: a negative word has the node count added once. -/
def srcCol (a1 : IVec S2x640000 32) : IVec S640000x1 32 :=
  broadcastInDim S640000x1 ![0] bcast_S640000_S640000x1_0
    (select (cmpi .slt (edgeRow0 a1) (broadcastInDim S640000 ![] bcast_S_S640000 (constantI S_ 32 0#32)))
      (addi (edgeRow0 a1) (broadcastInDim S640000 ![] bcast_S_S640000 (constantI S_ 32 40000#32))) (edgeRow0 a1))

/-- The destination column. -/
def dstCol (a1 : IVec S2x640000 32) : IVec S640000x1 32 :=
  broadcastInDim S640000x1 ![0] bcast_S640000_S640000x1_0 (edgeRow1 a1)

/-- The integer count of the edges landing on each node. -/
def countVec (a1 : IVec S2x640000 32) : IVec S40000 32 :=
  Host.scatter scatter_S40000_S640000x1_S640000_n_0_0_1 IntOp.addi
    (broadcastInDim S40000 ![] bcast_S_S40000 (constantI S_ 32 0#32)) (dstCol a1)
    (broadcastInDim S640000 ![] bcast_S_S640000 (constantI S_ 32 1#32))

/-- The column `1 / max (count) 1`. -/
def invCol (a1 : IVec S2x640000 32) : FVec Ideal S40000x1 .f32 :=
  shapeCast S40000x1
    (Host.divf (broadcastInDim S40000 ![] bcast_S_S40000 (constant (F := Ideal) S_ .f32 0x3F800000#32))
      (maximumf (sitofp .f32 (countVec a1))
        (broadcastInDim S40000 ![] bcast_S_S40000 (constant (F := Ideal) S_ .f32 0x3F800000#32))))
    shapeCasts_S40000_S40000x1

/-! ## What the first stretch writes -/

theorem W1_v1 (c : Dev nD) : W1 m ρ c (Proc.devRef .tc main_v1) = edgeRow0 (m ((c : Thread nD τ).loc main_arg1)) := by
  show StableHlo.after hostOps0 (W0 m ρ c) (Proc.devRef .tc main_v1) = _
  after_results
  rfl

theorem W1_v3 (c : Dev nD) : W1 m ρ c (Proc.devRef .tc main_v3) = edgeRow1 (m ((c : Thread nD τ).loc main_arg1)) := by
  show StableHlo.after hostOps0 (W0 m ρ c) (Proc.devRef .tc main_v3) = _
  after_results
  rfl

theorem W1_v13 (c : Dev nD) : W1 m ρ c (Proc.devRef .tc main_v13) = invCol (m ((c : Thread nD τ).loc main_arg1)) := by
  show StableHlo.after hostOps0 (W0 m ρ c) (Proc.devRef .tc main_v13) = _
  after_results
  rfl

end Cert.KernelIdeal.HostValue

end
-- ==== Proof.LibRowOps.lean ====
/-
  GATHER AND SCATTER OF ROWS, READ AT AN INDEX. StableHLO's `gather` and `scatter` with ONE index column — the
  lowering of `x[idx]`, `x.at[idx].add(v)` for a 2-d array `x` and of `c.at[idx].add(v)` for a 1-d array `c`, at an
  integer vector `idx` presented as an `[E, 1]` array — stated generically in the extents: a gathered element is the
  operand's at the row index read signed and CLAMPED (`rowGather_apply`); an update lands at the row index read signed
  when it is inside the operand and is DROPPED otherwise (`rowScatter_resultIdx?`, `vecScatter_resultIdx?`), so the
  accumulating scatter at an element is the operand's element plus the sum of the updates whose row index is that
  element's row (`rowScatterAdd_apply`, `vecScatterAdd_apply`). Last, the INTEGER scatter of ones into zeros with
  wrapping 32-bit addition: the left fold over the updates adds one per update landing at the element
  (`scatter_ones_fold`), so with fewer than `2 ^ 31` updates the element, read signed, is the number of updates whose
  index is that element (`vecScatter_count`).
-/
import Idealize.ShloMosaic.Lib.ValueIdx
import Idealize.ShloMosaic.PureOps.Contract

noncomputable section

open scoped BigOperators
open Idealize.ShloMosaic Idealize.ShloMosaic.ValueIdx

namespace Cert.Lib

/-! ## A start index read as a row -/

/-- The word `b` read as a signed integer, as a row of an `n`-row array when it is inside `[0, n)`; `none` when it
    is outside (a scatter drops such an update). -/
def row? (n : Nat) {w : Nat} (b : BitVec w) : Option (Fin n) :=
  if h : 0 ≤ b.toInt ∧ b.toInt < n then some ⟨b.toInt.toNat, by omega⟩ else none

/-- The word `b` read as a signed integer and clamped into `[0, n - 1]` (a gather clamps every start index). -/
def clampRow (n : Nat) (hn : 0 < n) {w : Nat} (b : BitVec w) : Fin n := ⟨min b.toInt.toNat (n - 1), by omega⟩

/-- `row?` is `some i` exactly when the word, read signed, is the natural number `i`. -/
theorem row?_eq_some_iff {n w : Nat} (b : BitVec w) (i : Fin n) : row? n b = some i ↔ b.toInt = (i.val : Int) := by
  unfold row?
  constructor
  · intro h
    split at h
    · rename_i hb
      have := congrArg Fin.val (Option.some.inj h)
      simp only at this
      omega
    · exact absurd h (by simp)
  · intro h
    have hb : 0 ≤ b.toInt ∧ b.toInt < n := by have := i.isLt; omega
    rw [dif_pos hb]
    congr 1
    exact Fin.ext (by simp only; omega)

/-- Inside the range the clamped row is the row. -/
theorem clampRow_of_row? {n w : Nat} (hn : 0 < n) (b : BitVec w) (i : Fin n) (h : row? n b = some i) :
    clampRow n hn b = i := by
  rw [row?_eq_some_iff] at h
  refine Fin.ext ?_
  show min b.toInt.toNat (n - 1) = i.val
  have := i.isLt
  omega

/-! ## Gather of rows: `x[idx]` of a 2-d array at a column of row indices -/

section Gather
variable {α : Type}

/-- The dimension numbers of `x[idx, :]`: an operand `[N, D]`, start indices `[E, 1]` (one row index per result
    row), a result `[E, D]`; the row axis is collapsed, the column axis is the one offset axis, slices are `1 × D`. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, k)`: the operand's row `idx[e, 0]` — read signed and clamped into `[0, N - 1]` — at
    column `k`. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowGather N E D wf) x idx (ix2 e k) = x (ix2 (clampRow N hN (idx (ix2 e 0))) k) := by
  unfold Host.gather
  congr 1
  funext a
  refine Fin.ext ?_
  match a with
  | ⟨0, _⟩ =>
    show (rowGather N E D wf).start (ix2 e k) idx 0 + (rowGather N E D wf).batchCoord (ix2 e k) 0
      + (rowGather N E D wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e k) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E D wf).start (ix2 e k) idx 1 + (rowGather N E D wf).batchCoord (ix2 e k) 1
      + (rowGather N E D wf).offCoord (ix2 e k) 1 = k.val
    rw [GatherDims.batchCoord_eq_zero _ _ _ List.not_mem_nil]
    have hs : (rowGather N E D wf).start (ix2 e k) idx 1 = 0 := by
      unfold GatherDims.start
      rw [dif_neg (show (1 : Fin 2) ∉ (rowGather N E D wf).startIndexMap from (by decide : (1 : Fin 2) ∉ ([0] : List (Fin 2))))]
    have ho : (rowGather N E D wf).offCoord (ix2 e k) 1 = k.val := by
      unfold GatherDims.offCoord
      rw [dif_pos (show (1 : Fin 2) ∈ (rowGather N E D wf).sKept from
        (GatherDims.mem_sKept _ _).2 ⟨(by decide : (1 : Fin 2) ∉ ([0] : List (Fin 2))), List.not_mem_nil⟩)]
      rfl
    rw [hs, ho]; omega

end Gather

/-! ## Scatter of rows: `x.at[idx].add(upd)` of a 2-d array at a column of row indices -/

section Scatter

/-- The dimension numbers of `x.at[idx, :].add(upd)`: an operand `[N, D]`, scatter indices `[E, 1]` (one row index
    per update row), updates `[E, D]`; the operand's row axis is inserted, the updates' column axis is the one window
    axis. -/
abbrev rowScatter (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)

/-- On the row axis the window of update `(e, k)` starts at the scatter index `idx[e, 0]`, read signed. -/
theorem rowScatter_start_zero (idx : IVec ⟨2, ![E, 1]⟩ w) (e : Fin E) (k : Fin D) :
    (rowScatter N E D wf).start (ix2 e k) idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e k) ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window starts at `0`: the scatter indices do not name that axis. -/
theorem rowScatter_start_one (idx : IVec ⟨2, ![E, 1]⟩ w) (j : (⟨2, ![E, D]⟩ : Shape).Idx) :
    (rowScatter N E D wf).start j idx 1 = 0 := by
  unfold ScatterDims.start
  rw [dif_neg (show (1 : Fin 2) ∉ (rowScatter N E D wf).scatterDimsToOperandDims from (by decide : (1 : Fin 2) ∉ ([0] : List (Fin 2))))]

/-- The row axis is inserted: no window coordinate there. -/
theorem rowScatter_window_zero (j : (⟨2, ![E, D]⟩ : Shape).Idx) : (rowScatter N E D wf).window j 0 = 0 := by
  unfold ScatterDims.window
  rw [dif_neg (show (0 : Fin 2) ∉ (rowScatter N E D wf).sKept from
    (by decide : (0 : Fin 2) ∉ (List.finRange 2).filter (· ∉ ([0] : List (Fin 2)))))]

/-- On the column axis the window coordinate is the update's column. -/
theorem rowScatter_window_one (e : Fin E) (k : Fin D) : (rowScatter N E D wf).window (ix2 e k) 1 = k.val := by
  unfold ScatterDims.window
  rw [dif_pos (show (1 : Fin 2) ∈ (rowScatter N E D wf).sKept from
    (by decide : (1 : Fin 2) ∈ (List.finRange 2).filter (· ∉ ([0] : List (Fin 2)))))]
  rfl

/-- WHERE UPDATE `(e, k)` LANDS: at row `idx[e, 0]` (read signed) and column `k` when that row is inside the operand,
    nowhere when it is not. -/
theorem rowScatter_resultIdx? (idx : IVec ⟨2, ![E, 1]⟩ w) (e : Fin E) (k : Fin D) :
    (rowScatter N E D wf).resultIdx? (ix2 e k) idx = (row? N (idx (ix2 e 0))).map (fun i => ix2 i k) := by
  have h0 := rowScatter_start_zero wf idx e k
  have h1 := rowScatter_start_one wf idx (ix2 e k)
  have w0 := rowScatter_window_zero wf (ix2 e k)
  have w1 := rowScatter_window_one wf e k
  unfold ScatterDims.resultIdx? row?
  by_cases h : 0 ≤ (idx (ix2 e 0)).toInt ∧ (idx (ix2 e 0)).toInt < (N : Int)
  · have hall : ∀ a : Fin 2, 0 ≤ (rowScatter N E D wf).start (ix2 e k) idx a + (rowScatter N E D wf).window (ix2 e k) a ∧
        (rowScatter N E D wf).start (ix2 e k) idx a + (rowScatter N E D wf).window (ix2 e k) a
          < ((⟨2, ![N, D]⟩ : Shape).size a : Int) := by
      intro a
      match a with
      | ⟨0, _⟩ =>
        show 0 ≤ (rowScatter N E D wf).start (ix2 e k) idx 0 + ((rowScatter N E D wf).window (ix2 e k) 0 : Nat) ∧
          (rowScatter N E D wf).start (ix2 e k) idx 0 + ((rowScatter N E D wf).window (ix2 e k) 0 : Nat) < (N : Int)
        rw [h0, w0]; simpa using h
      | ⟨1, _⟩ =>
        show 0 ≤ (rowScatter N E D wf).start (ix2 e k) idx 1 + ((rowScatter N E D wf).window (ix2 e k) 1 : Nat) ∧
          (rowScatter N E D wf).start (ix2 e k) idx 1 + ((rowScatter N E D wf).window (ix2 e k) 1 : Nat) < (D : Int)
        rw [h1, w1]; have := k.isLt; omega
    rw [dif_pos hall, dif_pos h]
    simp only [Option.map_some]
    congr 1
    funext a
    refine Fin.ext ?_
    match a with
    | ⟨0, _⟩ =>
      show ((rowScatter N E D wf).start (ix2 e k) idx 0 + ((rowScatter N E D wf).window (ix2 e k) 0 : Nat)).toNat
        = (idx (ix2 e 0)).toInt.toNat
      rw [h0, w0]; simp
    | ⟨1, _⟩ =>
      show ((rowScatter N E D wf).start (ix2 e k) idx 1 + ((rowScatter N E D wf).window (ix2 e k) 1 : Nat)).toNat = k.val
      rw [h1, w1]; simp
  · have hall : ¬ ∀ a : Fin 2, 0 ≤ (rowScatter N E D wf).start (ix2 e k) idx a + (rowScatter N E D wf).window (ix2 e k) a ∧
        (rowScatter N E D wf).start (ix2 e k) idx a + (rowScatter N E D wf).window (ix2 e k) a
          < ((⟨2, ![N, D]⟩ : Shape).size a : Int) := by
      intro hall
      apply h
      have := hall 0
      rw [h0, w0] at this
      simpa using this
    rw [dif_neg hall, dif_neg h]
    rfl

/-- Two rank-2 indices built from coordinates are equal exactly when the coordinates are. -/
theorem ix2_inj {n0 n1 : Nat} (a a' : Fin n0) (b b' : Fin n1) : ix2 a b = ix2 a' b' ↔ a = a' ∧ b = b' := by
  constructor
  · intro h
    exact ⟨congrFun h 0, congrFun h 1⟩
  · rintro ⟨rfl, rfl⟩; rfl

/-- Update `(e, k')` lands at `(i, k)` exactly when its row index is `i` and its column is `k`. -/
theorem rowScatter_resultIdx?_eq_some_iff (idx : IVec ⟨2, ![E, 1]⟩ w) (e : Fin E) (k' : Fin D) (i : Fin N) (k : Fin D) :
    (rowScatter N E D wf).resultIdx? (ix2 e k') idx = some (ix2 i k) ↔ row? N (idx (ix2 e 0)) = some i ∧ k' = k := by
  rw [rowScatter_resultIdx?]
  cases hr : row? N (idx (ix2 e 0)) with
  | none => simp
  | some i' => simp [ix2_inj]

end Scatter

/-! ## The accumulating float scatter of rows, read at an element -/

section ScatterAdd
variable {N E D w : Nat} {φ : FTy}

/-- THE ROW SCATTER-ADD READ AT `(i, k)`: the operand's element plus the sum, over the update rows `e` whose row index
    `idx[e, 0]` is `i`, of the update's element `(e, k)`. -/
theorem rowScatterAdd_apply (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ) (i : Fin N) (k : Fin D) :
    Host.scatterAdd (rowScatter N E D wf) x idx upd (ix2 i k)
      = x (ix2 i k) + ∑ e ∈ Finset.univ.filter (fun e : Fin E => row? N (idx (ix2 e 0)) = some i), upd (ix2 e k) := by
  show x (ix2 i k) + ∑ j ∈ Finset.univ.filter (fun j => (rowScatter N E D wf).resultIdx? j idx = some (ix2 i k)), upd j = _
  congr 1
  rw [Finset.sum_filter, sum_idx2, Finset.sum_filter]
  refine Finset.sum_congr rfl fun e _ => ?_
  simp only [rowScatter_resultIdx?_eq_some_iff]
  by_cases hr : row? N (idx (ix2 e 0)) = some i
  · simp [hr]
  · simp [hr]

end ScatterAdd

/-! ## Scatter into a vector: `x.at[idx].add(upd)` of a 1-d array at a column of indices -/

section VecScatter

/-- A rank-1 index set is its one coordinate's range … -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- Two rank-1 indices built from a coordinate are equal exactly when the coordinates are. -/
theorem ix1_inj {n : Nat} (a a' : Fin n) : ix1 a = ix1 a' ↔ a = a' :=
  ⟨fun h => congrFun h 0, fun h => h ▸ rfl⟩

/-- The dimension numbers of `x.at[idx].add(upd)`: an operand `[N]`, scatter indices `[E, 1]` (one index per update),
    updates `[E]`; the operand's one axis is inserted, the updates have no window axis. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- Update `e`'s window starts at the scatter index `idx[e, 0]`, read signed. -/
theorem vecScatter_start (idx : IVec ⟨2, ![E, 1]⟩ w) (e : Fin E) :
    (vecScatter N E wf).start (ix1 e) idx 0 = (idx (ix2 e 0)).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The operand's one axis is inserted: no window coordinate. -/
theorem vecScatter_window (j : (⟨1, ![E]⟩ : Shape).Idx) : (vecScatter N E wf).window j 0 = 0 := by
  unfold ScatterDims.window
  rw [dif_neg (show (0 : Fin 1) ∉ (vecScatter N E wf).sKept from
    (by decide : (0 : Fin 1) ∉ (List.finRange 1).filter (· ∉ ([0] : List (Fin 1)))))]

/-- WHERE UPDATE `e` LANDS: at `idx[e, 0]` (read signed) when that is inside the operand, nowhere when it is not. -/
theorem vecScatter_resultIdx? (idx : IVec ⟨2, ![E, 1]⟩ w) (e : Fin E) :
    (vecScatter N E wf).resultIdx? (ix1 e) idx = (row? N (idx (ix2 e 0))).map ix1 := by
  have h0 := vecScatter_start wf idx e
  have w0 := vecScatter_window wf (ix1 e)
  unfold ScatterDims.resultIdx? row?
  by_cases h : 0 ≤ (idx (ix2 e 0)).toInt ∧ (idx (ix2 e 0)).toInt < (N : Int)
  · have hall : ∀ a : Fin 1, 0 ≤ (vecScatter N E wf).start (ix1 e) idx a + (vecScatter N E wf).window (ix1 e) a ∧
        (vecScatter N E wf).start (ix1 e) idx a + (vecScatter N E wf).window (ix1 e) a
          < ((⟨1, ![N]⟩ : Shape).size a : Int) := by
      intro a
      match a with
      | ⟨0, _⟩ =>
        show 0 ≤ (vecScatter N E wf).start (ix1 e) idx 0 + ((vecScatter N E wf).window (ix1 e) 0 : Nat) ∧
          (vecScatter N E wf).start (ix1 e) idx 0 + ((vecScatter N E wf).window (ix1 e) 0 : Nat) < (N : Int)
        rw [h0, w0]; simpa using h
    rw [dif_pos hall, dif_pos h]
    simp only [Option.map_some]
    congr 1
    funext a
    refine Fin.ext ?_
    match a with
    | ⟨0, _⟩ =>
      show ((vecScatter N E wf).start (ix1 e) idx 0 + ((vecScatter N E wf).window (ix1 e) 0 : Nat)).toNat
        = (idx (ix2 e 0)).toInt.toNat
      rw [h0, w0]; simp
  · have hall : ¬ ∀ a : Fin 1, 0 ≤ (vecScatter N E wf).start (ix1 e) idx a + (vecScatter N E wf).window (ix1 e) a ∧
        (vecScatter N E wf).start (ix1 e) idx a + (vecScatter N E wf).window (ix1 e) a
          < ((⟨1, ![N]⟩ : Shape).size a : Int) := by
      intro hall
      apply h
      have := hall 0
      rw [h0, w0] at this
      simpa using this
    rw [dif_neg hall, dif_neg h]
    rfl

/-- Update `e` lands at `i` exactly when its index is `i`. -/
theorem vecScatter_resultIdx?_eq_some_iff (idx : IVec ⟨2, ![E, 1]⟩ w) (e : Fin E) (i : Fin N) :
    (vecScatter N E wf).resultIdx? (ix1 e) idx = some (ix1 i) ↔ row? N (idx (ix2 e 0)) = some i := by
  rw [vecScatter_resultIdx?]
  cases hr : row? N (idx (ix2 e 0)) with
  | none => simp
  | some i' => simp [ix1_inj]

/-- THE VECTOR SCATTER-ADD READ AT `i`: the operand's element plus the sum of the updates `e` whose index `idx[e, 0]`
    is `i`. -/
theorem vecScatterAdd_apply {φ : FTy} (x : FVec Ideal ⟨1, ![N]⟩ φ) (idx : IVec ⟨2, ![E, 1]⟩ w)
    (upd : FVec Ideal ⟨1, ![E]⟩ φ) (i : Fin N) :
    Host.scatterAdd (F := Ideal) (vecScatter N E wf) x idx upd (ix1 i)
      = x (ix1 i) + ∑ e ∈ Finset.univ.filter (fun e : Fin E => row? N (idx (ix2 e 0)) = some i), upd (ix1 e) := by
  show x (ix1 i) + ∑ j ∈ Finset.univ.filter (fun j => (vecScatter N E wf).resultIdx? j idx = some (ix1 i)), upd j = _
  congr 1
  rw [Finset.sum_filter, sum_idx1, Finset.sum_filter]
  refine Finset.sum_congr rfl fun e _ => ?_
  simp only [vecScatter_resultIdx?_eq_some_iff]

end VecScatter

/-! ## The integer scatter of ones: a count -/

section Count

/-- How many positions of `0, …, n - 1` satisfy `p`, counted along the list of them, is the size of the set of them. -/
theorem countP_finRange {n : Nat} (p : Fin n → Prop) [DecidablePred p] :
    (List.finRange n).countP (fun k => decide (p k)) = (Finset.univ.filter p).card := by
  rw [List.countP_eq_length_filter, ← List.toFinset_card_of_nodup ((List.nodup_finRange n).filter _),
    List.toFinset_filter, List.toFinset_finRange]
  congr 1
  ext k
  simp

/-- THE FOLD OF AN INTEGER SCATTER OF ONES over any list of update positions: at operand element `i` it has added, to
    what was there, the number of listed updates that land at `i` (modulo `2 ^ 32`). An update landing elsewhere, or
    nowhere, leaves element `i` as it was. -/
theorem scatter_ones_fold {s si u : Shape} {w : Nat} (d : ScatterDims s si u) (idx : IVec si w)
    (upd : u.Idx → BitVec 32) (hupd : ∀ j, upd j = 1#32) (i : s.Idx) (l : List (Fin u.numel)) (acc : s.Idx → BitVec 32) :
    (l.foldl (fun r n =>
        match d.resultIdx? (u.rowMajor.symm n) idx with
        | some i0 => fun i' => if i' = i0 then IntOp.addi (r i0) (upd (u.rowMajor.symm n)) else r i'
        | none => r) acc) i
      = acc i + BitVec.ofNat 32 (l.countP fun n => decide (d.resultIdx? (u.rowMajor.symm n) idx = some i)) := by
  induction l generalizing acc with
  | nil => simp
  | cons n l ih =>
    rw [List.foldl_cons, ih, List.countP_cons]
    cases hr : d.resultIdx? (u.rowMajor.symm n) idx with
    | none => simp
    | some i0 =>
      by_cases hi : i = i0
      · subst hi
        simp only [if_true, decide_true, IntOp.addi, hupd]
        rw [BitVec.ofNat_add, BitVec.add_assoc]
        congr 1
        rw [BitVec.add_comm]
      · have hne : ¬ (some i0 = some i) := fun h => hi (Option.some.inj h).symm
        simp [hi, hne]

end Count

section VecCount
variable {N E : Nat}

/-- THE INTEGER COUNT: scattering a `1` for every update into a vector of zeros with 32-bit wrapping addition leaves at
    element `i`, read signed, the number of updates `e` whose index `idx[e, 0]` is `i` — there are fewer than `2 ^ 31`
    updates, so the sum never wraps. -/
theorem vecScatter_count (hE : E < 2 ^ 31) (wf : ScatterDims.WF ⟨1, ![N]⟩ ⟨2, ![E, 1]⟩ ⟨1, ![E]⟩ [] [0] [0] 1)
    (idx : IVec ⟨2, ![E, 1]⟩ 32) (i : Fin N) :
    (Host.scatter (vecScatter N E wf) IntOp.addi (fun _ => (0#32 : BitVec 32)) idx (fun _ => (1#32 : BitVec 32)) (ix1 i)).toInt
      = ((Finset.univ.filter (fun e : Fin E => row? N (idx (ix2 e 0)) = some i)).card : Int) := by
  refine (congrArg BitVec.toInt (scatter_ones_fold (vecScatter N E wf) idx (fun _ => 1#32) (fun _ => rfl) (ix1 i)
    (List.finRange (⟨1, ![E]⟩ : Shape).numel) (fun _ => 0#32))).trans ?_
  rw [countP_finRange (fun n => (vecScatter N E wf).resultIdx? ((⟨1, ![E]⟩ : Shape).rowMajor.symm n) idx = some (ix1 i))]
  have hcard : (Finset.univ.filter (fun n : Fin (⟨1, ![E]⟩ : Shape).numel =>
        (vecScatter N E wf).resultIdx? ((⟨1, ![E]⟩ : Shape).rowMajor.symm n) idx = some (ix1 i))).card
      = (Finset.univ.filter (fun e : Fin E => row? N (idx (ix2 e 0)) = some i)).card := by
    refine Finset.card_equiv ((⟨1, ![E]⟩ : Shape).rowMajor.symm.trans idxEquiv1) fun n => ?_
    simp only [Finset.mem_filter, Finset.mem_univ, true_and, Equiv.trans_apply]
    generalize (⟨1, ![E]⟩ : Shape).rowMajor.symm n = j
    obtain ⟨e, rfl⟩ : ∃ e : Fin E, j = ix1 e := ⟨j 0, eq_ix1 j⟩
    rw [vecScatter_resultIdx?_eq_some_iff]
    rfl
  rw [hcard]
  have hle : (Finset.univ.filter (fun e : Fin E => row? N (idx (ix2 e 0)) = some i)).card ≤ E := by
    simpa using Finset.card_le_univ (Finset.univ.filter (fun e : Fin E => row? N (idx (ix2 e 0)) = some i))
  generalize (Finset.univ.filter (fun e : Fin E => row? N (idx (ix2 e 0)) = some i)).card = c at hle ⊢
  rw [BitVec.zero_add, BitVec.toInt_eq_toNat_cond, BitVec.toNat_ofNat]
  have hc : c % 2 ^ 32 = c := Nat.mod_eq_of_lt (by omega)
  rw [hc, if_pos (by omega)]

end VecCount

end Cert.Lib

end
-- ==== Proof.KerRecords.lean ====
/-
  The idealized kernel's gather and scatter dimension records are the one-index-column records: the same field lists,
  built from the program's own well-formedness facts.
-/
import proofs.«162418_j19636590477698_2_alg».proof.Proof.Gen.KernelIdeal
import proofs.«162418_j19636590477698_2_alg».proof.Proof.LibRowOps

set_option maxRecDepth 16384

noncomputable section

namespace Cert.KernelIdeal.HostValue

open Idealize.ShloMosaic Cert.KernelIdeal Cert.KernelIdeal.Facts₀

theorem scatterVec_eq : scatter_S40000_S640000x1_S640000_n_0_0_1
    = Cert.Lib.vecScatter 40000 640000 scatter_S40000_S640000x1_S640000_n_0_0_1_wf := rfl
theorem gather64_eq : gather_S40000x64_S640000x1_S640000x64_1_0_n_n_0_1_164
    = Cert.Lib.rowGather 40000 640000 64 gather_S40000x64_S640000x1_S640000x64_1_0_n_n_0_1_164_wf := rfl
theorem scatter64_eq : scatter_S40000x64_S640000x1_S640000x64_1_0_0_1
    = Cert.Lib.rowScatter 40000 640000 64 scatter_S40000x64_S640000x1_S640000x64_1_0_0_1_wf := rfl

end Cert.KernelIdeal.HostValue

end
-- ==== Proof.Spec.lean ====
/-
  The two pieces of arithmetic every node tile of this network computes, as functions of WHOLE arrays read at an
  index (no tiling, no program): the projection `X Wᵀ` and the node update
  `S ⊙ inv + b + X Wᵀ` (with or without the rectifier). Entries are extended reals; nothing here is evaluated.
-/
import Idealize.ShloMosaic.PureOps.Ideal
import Idealize.ShloMosaic.Lib.ValueIdx

noncomputable section

open Idealize.ShloMosaic Idealize.ShloMosaic.ValueIdx

namespace Cert.Sage

/-- `X Wᵀ` for `X : [N, K]`, `W : [H, K]`: entry `(p, q)` is `∑ k, X[p, k] · W[q, k]`. -/
def projNT {N K H : Nat} (X : (⟨2, ![N, K]⟩ : Shape).Idx → EReal) (W : (⟨2, ![H, K]⟩ : Shape).Idx → EReal) :
    (⟨2, ![N, H]⟩ : Shape).Idx → EReal :=
  fun j => ∑ k : Fin K, X (ix2 (n0 := N) (n1 := K) (j 0) k) * W (ix2 (n0 := H) (n1 := K) (j 1) k)

/-- The node update before the activation: entry `(p, q)` is `S[p, q] · inv[p, 0] + b[0, q] + ∑ k, X[p, k] · W[q, k]`
    (`S` the aggregated messages, `inv` the column of reciprocal neighbour counts, `b` the bias row, `X Wᵀ` the
    skip branch). -/
def epiLin {N K H : Nat} (S : (⟨2, ![N, H]⟩ : Shape).Idx → EReal) (inv : (⟨2, ![N, 1]⟩ : Shape).Idx → EReal)
    (X : (⟨2, ![N, K]⟩ : Shape).Idx → EReal) (W : (⟨2, ![H, K]⟩ : Shape).Idx → EReal)
    (b : (⟨2, ![1, H]⟩ : Shape).Idx → EReal) : (⟨2, ![N, H]⟩ : Shape).Idx → EReal :=
  fun j => S j * inv (ix2 (n0 := N) (n1 := 1) (j 0) 0) + b (ix2 (n0 := 1) (n1 := H) 0 (j 1)) + projNT X W j

/-- The node update followed by the rectifier `max · 0`. -/
def epiRelu {N K H : Nat} (S : (⟨2, ![N, H]⟩ : Shape).Idx → EReal) (inv : (⟨2, ![N, 1]⟩ : Shape).Idx → EReal)
    (X : (⟨2, ![N, K]⟩ : Shape).Idx → EReal) (W : (⟨2, ![H, K]⟩ : Shape).Idx → EReal)
    (b : (⟨2, ![1, H]⟩ : Shape).Idx → EReal) : (⟨2, ![N, H]⟩ : Shape).Idx → EReal :=
  fun j => max (epiLin S inv X W b j) 0

end Cert.Sage

end
-- ==== Proof.KRegion0.lean ====
/-
  The first projection region, from blocks to the whole array. The region walks eight grid points; at point t it
  multiplies rows 5000·t … 5000·t + 4999 of the node features X : [40000, 128] against the resident weights
  W : [64, 128], both contracted on their last axis, and writes the 5000 × 64 product back as block row t of the
  output. Entry (p, q) of a block is ∑ k, X[5000·t + p, k] · W[q, k]: it depends on one row of X and one row of W
  only, so the block is the restriction of the whole-array product X Wᵀ to its rows, and since the eight blocks
  tile the 40000 rows the output array ends as X Wᵀ. The change of float format before the product is the identity
  on the extended reals, and the accumulator is the zero word.
-/
import proofs.«162418_j19636590477698_2_alg».proof.Proof.Gen.KernelIdeal.Frame
import proofs.«162418_j19636590477698_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.ValueIdx Idealize.ShloMosaic.TcCoe Idealize.SL.Sem
open Idealize.ShloMosaic.Pipeline (Dat Cfg Window)
open Cert.KernelIdeal Cert.KernelIdeal.Gen

namespace Cert.KernelIdeal.RegionValue

theorem lhs0_0 (i : S5000x64.Idx) (k : dot_S5000x128_S64x128_S5000x64_1_1_0_0_n_n.contr.Idx) :
    (dot_S5000x128_S64x128_S5000x64_1_1_0_0_n_n.lhsIdx i k 0).val = (i 0).val := by
  unfold DotDims.lhsIdx
  rw [dif_neg (show ¬(0 : Fin S5000x128.rank) ∈ dot_S5000x128_S64x128_S5000x64_1_1_0_0_n_n.lhsBatch by decide), dif_pos (show (0 : Fin S5000x128.rank) ∈ dot_S5000x128_S64x128_S5000x64_1_1_0_0_n_n.lhsNonContracting by decide)]
  rfl
theorem lhs0_1 (i : S5000x64.Idx) (k : dot_S5000x128_S64x128_S5000x64_1_1_0_0_n_n.contr.Idx) :
    (dot_S5000x128_S64x128_S5000x64_1_1_0_0_n_n.lhsIdx i k 1).val = (k ⟨0, by decide⟩).val :=
  dot_S5000x128_S64x128_S5000x64_1_1_0_0_n_n.lhsIdx_val_of_single rfl i k
theorem rhs0_0 (i : S5000x64.Idx) (k : dot_S5000x128_S64x128_S5000x64_1_1_0_0_n_n.contr.Idx) :
    (dot_S5000x128_S64x128_S5000x64_1_1_0_0_n_n.rhsIdx i k 0).val = (i 1).val := by
  unfold DotDims.rhsIdx
  rw [dif_neg (show ¬(0 : Fin S64x128.rank) ∈ dot_S5000x128_S64x128_S5000x64_1_1_0_0_n_n.rhsBatch by decide), dif_pos (show (0 : Fin S64x128.rank) ∈ dot_S5000x128_S64x128_S5000x64_1_1_0_0_n_n.rhsNonContracting by decide)]
  rfl
theorem rhs0_1 (i : S5000x64.Idx) (k : dot_S5000x128_S64x128_S5000x64_1_1_0_0_n_n.contr.Idx) :
    (dot_S5000x128_S64x128_S5000x64_1_1_0_0_n_n.rhsIdx i k 1).val = (k ⟨0, by decide⟩).val :=
  dot_S5000x128_S64x128_S5000x64_1_1_0_0_n_n.rhsIdx_val_of_single rfl i k

/-- One block's product at an entry: row p of the node block against row q of the weights, summed over the 128 features. -/
theorem pay0_apply (x0 : Vec Ideal S5000x128 .f32) (x1 : Vec Ideal S64x128 .f32) (p : Fin 5000) (q : Fin 64) :
    Gen.k0_pay1 (F := Ideal) x0 x1 (ix2 p q) = ∑ k : Fin 128, x0 (ix2 p k) * x1 (ix2 q k) := by
  unfold Gen.k0_pay1
  simp only [matmul]
  rw [Ideal.matmul_constant_zero_apply, ← Equiv.sum_comp (contrEquiv1 dot_S5000x128_S64x128_S5000x64_1_1_0_0_n_n 128 rfl rfl).symm]
  refine Finset.sum_congr rfl fun k _ => ?_
  have hk := contrEquiv1_symm_val dot_S5000x128_S64x128_S5000x64_1_1_0_0_n_n 128 rfl rfl k
  have el : dot_S5000x128_S64x128_S5000x64_1_1_0_0_n_n.lhsIdx (ix2 p q) ((contrEquiv1 dot_S5000x128_S64x128_S5000x64_1_1_0_0_n_n 128 rfl rfl).symm k) = ix2 p k := funext fun a => Fin.ext (by
    match a with
    | ⟨0, _⟩ => exact lhs0_0 _ _
    | ⟨1, _⟩ => exact (lhs0_1 _ _).trans hk)
  have er : dot_S5000x128_S64x128_S5000x64_1_1_0_0_n_n.rhsIdx (ix2 p q) ((contrEquiv1 dot_S5000x128_S64x128_S5000x64_1_1_0_0_n_n 128 rfl rfl).symm k) = ix2 q k := funext fun a => Fin.ext (by
    match a with
    | ⟨0, _⟩ => exact rhs0_0 _ _
    | ⟨1, _⟩ => exact (rhs0_1 _ _).trans hk)
  rw [el, er]
  rfl

/-- The block product at any entry of the block. -/
theorem pay0_at (x0 : Vec Ideal S5000x128 .f32) (x1 : Vec Ideal S64x128 .f32) (y : S5000x64.Idx) :
    Gen.k0_pay1 (F := Ideal) x0 x1 y = ∑ k : Fin 128, x0 (ix2 (y 0) k) * x1 (ix2 (y 1) k) := by
  obtain ⟨p, q, rfl⟩ : ∃ (p : Fin 5000) (q : Fin 64), y = ix2 p q := ⟨y 0, y 1, eq_ix2 y⟩
  exact pay0_apply x0 x1 p q

theorem hz0 : (![0, 0] : Fin 2 → Nat) = fun _ => 0 := funext fun a => by fin_cases a <;> rfl

/-- Where the blocks sit, decided over the eight grid points: the node block and the output block of point t are both
    block row t, in block column 0; the weights are always their one whole block. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

variable (V : (c : Dev nD) → (b : Ref sig .tc) → Buf (Elt Ideal) ((c : Thread nD τ).loc b))

/-- What grid point t writes back is block t of the whole-array projection of the arrays as the region finds them. -/
theorem flushed0_eq (c : Dev nD) (t : Fin cfg0.N) :
    (Gen.dat0 (F := Ideal) V c).flushed 2 t = ((cfg0.win 2).blk t).view.read (Elt Ideal)
      (Cert.Sage.projNT (N := 40000) (K := 128) (H := 64) (V c main_arg0) (V c main_arg2)) := by
  show (cfg0.win 2).cut (grid0.coords t) ((Gen.dat0 (F := Ideal) V c).after 2 t) = _
  rw [Gen.after0_2]
  unfold Gen.out0_2
  rw [View.canon_unit_zero hz0]
  simp only [View.ld_unit_zero (S := S5000x128) hz0, View.ld_unit_zero (S := S64x128) hz0]
  obtain ⟨e0, e1, e2, e3, e4, e5⟩ := idx_facts0 t
  funext j
  show Gen.k0_pay1 (F := Ideal) (Gen.iblk0 V c 0 t) (Gen.iblk0 V c 1 t) j
     = Cert.Sage.projNT (N := 40000) (K := 128) (H := 64) (V c main_arg0) (V c main_arg2) (((cfg0.win 2).blk t).view.emb j)
  refine (pay0_at (Gen.iblk0 V c 0 t) (Gen.iblk0 V c 1 t) j).trans ?_
  unfold Cert.Sage.projNT
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (ix2 (j 1) k) = ix2 ((((cfg0.win 2).blk t).view.emb j) 1) k := by
    funext a; apply Fin.ext
    match a with
    | ⟨0, _⟩ => show win0_1.index t (0 : Fin 2) * 64 + 1 * (j 1).val = win0_2.index t (1 : Fin 2) * 64 + 1 * (j 1).val; omega
    | ⟨1, _⟩ => show win0_1.index t (1 : Fin 2) * 128 + 1 * k.val = k.val; omega
  exact congrArg₂ (fun a b : EReal => a * b)
    (congrArg (V c main_arg0 : S40000x128.Idx → EReal) h0)
    (congrArg (V c main_arg2 : S64x128.Idx → EReal) h1)

/-- A row-and-column index of the output array lies in point t's block iff each coordinate is in the block's range. -/
theorem mem_blk0 (t : Fin cfg0.N) (i : S40000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v14).slice (win0_2.rect t)).set ↔ _
  rw [View.set_slice_whole, Rect.mem_set_unit]
  exact Iff.rfl

/-- The eight blocks of 5000 rows tile the 40000 rows: row r is in the block of point r / 5000. -/
theorem cover0 (i : S40000x64.Idx) :
    ∃ t : Fin cfg0.N, (cfg0.win 2).flush t = true ∧ i ∈ ((cfg0.win 2).blk t).view.set := by
  have hi0 : (i 0).val < 40000 := (i 0).isLt
  have hi1 : (i 1).val < 64 := (i 1).isLt
  have ht : (i 0).val / 5000 < cfg0.N := by show _ < 8; omega
  obtain ⟨e0, e1, e2, e3, e4, e5⟩ := idx_facts0 ⟨(i 0).val / 5000, ht⟩
  refine ⟨⟨(i 0).val / 5000, ht⟩, Gen.flush0_2 _, ?_⟩
  rw [mem_blk0]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 64 ≤ (i 1).val ∧ (i 1).val < win0_2.index ⟨(i 0).val / 5000, ht⟩ (1 : Fin 2) * 64 + 64
    rw [e5]; omega

/-- THE OUTPUT ARRAY of the first projection region after its eight points: the whole-array product X Wᵀ of the node
    features and the weights as the region finds them. -/
theorem final0 (c : Dev nD) :
    (Gen.dat0 (F := Ideal) V c).arrAt 2 cfg0.N
      = Cert.Sage.projNT (N := 40000) (K := 128) (H := 64) (V c main_arg0) (V c main_arg2) :=
  (Gen.dat0 (F := Ideal) V c).arrAt_eq_of_cover 2 _ (fun t _ => flushed0_eq V c t) cover0

end Cert.KernelIdeal.RegionValue

end
-- ==== Proof.KRegion1.lean ====
/-
  The node update of one layer, from blocks to the whole array. The region runs over eight grid points; point `t`
  holds rows `5000 t … 5000 t + 4999` of the three row-blocked inputs (aggregated messages [40000,64], the column of
  reciprocal neighbour counts [40000,1], the features [40000,128]) and the whole weights [64,128] and bias row [1,64], and
  writes rows `5000 t … 5000 t + 4999` of the output. Entry (p, q) of what it writes is
  `S[p, q] · inv[p, 0] + b[0, q] + ∑ k, X[p, k] · W[q, k]`, then `max · 0`: every term reads row `p` of a row-blocked input or an entry of
  a resident one, so the block is the restriction to its rows of ONE function of the whole arrays, and since the eight
  blocks tile the 40000 rows the output array ends as that function (`final1`). The matrix product contracts both
  operands on their last axis (`X Wᵀ`); the change of float format before it is the identity on extended reals, and
  the accumulator it starts from is zero.
-/
import proofs.«162418_j19636590477698_2_alg».proof.Proof.Gen.KernelIdeal.Frame
import proofs.«162418_j19636590477698_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat Cfg Window)
open Cert.KernelIdeal Cert.KernelIdeal.Gen

namespace Cert.KernelIdeal.RegionValue

theorem matmulNT128_lhs0 (i : S5000x64.Idx) (r : dot_S5000x128_S64x128_S5000x64_1_1_0_0_n_n.contr.Idx) :
    (dot_S5000x128_S64x128_S5000x64_1_1_0_0_n_n.lhsIdx i r 0).val = (i 0).val := by
  unfold DotDims.lhsIdx
  rw [dif_neg (show ¬(0 : Fin S5000x128.rank) ∈ dot_S5000x128_S64x128_S5000x64_1_1_0_0_n_n.lhsBatch by decide), dif_pos (show (0 : Fin S5000x128.rank) ∈ dot_S5000x128_S64x128_S5000x64_1_1_0_0_n_n.lhsNonContracting by decide)]
  rfl
theorem matmulNT128_lhs1 (i : S5000x64.Idx) (r : dot_S5000x128_S64x128_S5000x64_1_1_0_0_n_n.contr.Idx) :
    (dot_S5000x128_S64x128_S5000x64_1_1_0_0_n_n.lhsIdx i r 1).val = (r ⟨0, by decide⟩).val :=
  dot_S5000x128_S64x128_S5000x64_1_1_0_0_n_n.lhsIdx_val_of_single rfl i r
theorem matmulNT128_rhs0 (i : S5000x64.Idx) (r : dot_S5000x128_S64x128_S5000x64_1_1_0_0_n_n.contr.Idx) :
    (dot_S5000x128_S64x128_S5000x64_1_1_0_0_n_n.rhsIdx i r 0).val = (i 1).val := by
  unfold DotDims.rhsIdx
  rw [dif_neg (show ¬(0 : Fin S64x128.rank) ∈ dot_S5000x128_S64x128_S5000x64_1_1_0_0_n_n.rhsBatch by decide), dif_pos (show (0 : Fin S64x128.rank) ∈ dot_S5000x128_S64x128_S5000x64_1_1_0_0_n_n.rhsNonContracting by decide)]
  rfl
theorem matmulNT128_rhs1 (i : S5000x64.Idx) (r : dot_S5000x128_S64x128_S5000x64_1_1_0_0_n_n.contr.Idx) :
    (dot_S5000x128_S64x128_S5000x64_1_1_0_0_n_n.rhsIdx i r 1).val = (r ⟨0, by decide⟩).val :=
  dot_S5000x128_S64x128_S5000x64_1_1_0_0_n_n.rhsIdx_val_of_single rfl i r

/-- The product of a [5000,128] block with the TRANSPOSE of a [64,128] matrix, accumulated into zero: entry (p, q) is
    the sum over the shared last axis k of a[p, k] · b[q, k]. -/
theorem matmulNT128_apply (a : FVec Ideal S5000x128 .bf16) (b : FVec Ideal S64x128 .bf16) (p : Fin 5000) (q : Fin 64) :
    matmul (F := Ideal) dot_S5000x128_S64x128_S5000x64_1_1_0_0_n_n none a b (constant (F := Ideal) S5000x64 .f32 0x00000000#32) (ix2 p q)
      = ∑ k : Fin 128, a (ix2 p k) * b (ix2 q k) := by
  simp only [matmul]
  rw [Ideal.matmul_constant_zero_apply, ← Equiv.sum_comp (contrEquiv1 dot_S5000x128_S64x128_S5000x64_1_1_0_0_n_n 128 rfl rfl).symm]
  refine Finset.sum_congr rfl fun k _ => ?_
  have hk := contrEquiv1_symm_val dot_S5000x128_S64x128_S5000x64_1_1_0_0_n_n 128 rfl rfl k
  have el : dot_S5000x128_S64x128_S5000x64_1_1_0_0_n_n.lhsIdx (ix2 p q) ((contrEquiv1 dot_S5000x128_S64x128_S5000x64_1_1_0_0_n_n 128 rfl rfl).symm k) = ix2 p k := funext fun a => Fin.ext (by
    match a with
    | ⟨0, _⟩ => exact matmulNT128_lhs0 _ _
    | ⟨1, _⟩ => exact (matmulNT128_lhs1 _ _).trans hk)
  have er : dot_S5000x128_S64x128_S5000x64_1_1_0_0_n_n.rhsIdx (ix2 p q) ((contrEquiv1 dot_S5000x128_S64x128_S5000x64_1_1_0_0_n_n 128 rfl rfl).symm k) = ix2 q k := funext fun a => Fin.ext (by
    match a with
    | ⟨0, _⟩ => exact matmulNT128_rhs0 _ _
    | ⟨1, _⟩ => exact (matmulNT128_rhs1 _ _).trans hk)
  rw [el, er]

/-- A [5000,1] column spread along the rows of a [5000,64] block: entry (p, q) is the column's entry (p, 0). -/
theorem colBroadcast_apply (x : FVec Ideal S5000x1 .f32) (p : Fin 5000) (q : Fin 64) :
    broadcastTo S5000x64 x broadcasts_S5000x1_S5000x64 (ix2 p q) = x (ix2 p 0) :=
  broadcastTo_apply x broadcasts_S5000x1_S5000x64 (ix2 p q) (ix2 p 0) (fun a => by
    match a with
    | ⟨0, _⟩ => show p.val = if (5000 : Nat) = 1 then 0 else p.val; rw [if_neg (by decide)]
    | ⟨1, _⟩ => show (0 : Nat) = if (1 : Nat) = 1 then 0 else q.val; rw [if_pos rfl])

/-- A [1,64] row repeated down a [5000,64] block: entry (p, q) is the row's entry (0, q). -/
theorem rowBroadcast_apply (x : FVec Ideal S1x64 .f32) (p : Fin 5000) (q : Fin 64) :
    broadcastTo S5000x64 x broadcasts_S1x64_S5000x64 (ix2 p q) = x (ix2 0 q) :=
  broadcastTo_apply x broadcasts_S1x64_S5000x64 (ix2 p q) (ix2 0 q) (fun a => by
    match a with
    | ⟨0, _⟩ => show (0 : Nat) = if (1 : Nat) = 1 then 0 else p.val; rw [if_pos rfl]
    | ⟨1, _⟩ => show q.val = if (64 : Nat) = 1 then 0 else q.val; rw [if_neg (by decide)])

/-- What one grid point computes, entry by entry: the block of aggregated messages scaled row by row by the column of
    reciprocal neighbour counts, plus the bias row, plus the block of features times the transposed weights, then the
    rectifier. -/
theorem pay1_apply (v0 : Vec Ideal S5000x64 .f32) (v2 : Vec Ideal S5000x1 .f32) (v6 : Vec Ideal S5000x128 .f32)
    (v8 : Vec Ideal S64x128 .f32) (v11 : Vec Ideal S1x64 .f32) (p : Fin 5000) (q : Fin 64) :
    k1_pay1 (F := Ideal) v0 v2 v6 v8 v11 (ix2 p q)
      = max (v0 (ix2 p q) * v2 (ix2 p 0) + v11 (ix2 0 q) + ∑ k : Fin 128, v6 (ix2 p k) * v8 (ix2 q k)) 0 := by
  unfold k1_pay1
  simp only [shapeCast_self]
  rw [maximumf_apply, addf_apply, addf_apply, mulf_apply, broadcast_apply]
  rw [colBroadcast_apply, rowBroadcast_apply, matmulNT128_apply]
  simp only [truncf_apply]
  rw [show (Scalar.ofBits (F := Ideal) .f32 0x00000000#32 : EReal) = 0 from Ideal.ofBits_zero_f32]

variable (V : (c : Dev nD) → (b : Ref sig .tc) → Buf (Elt Ideal) ((c : Thread nD τ).loc b))

theorem hz : (![0, 0] : Fin 2 → Nat) = fun _ => 0 := funext fun a => by fin_cases a <;> rfl

/-- One entry of the point's result against the whole-array update: if the five loaded blocks hold, at the entries the
    block entry `y` depends on, what the five arrays hold at the entries the array entry `i` depends on, then the
    block's entry `y` is the update's entry `i`. -/
theorem pay1_at (x0 : Vec Ideal S5000x64 .f32) (x1 : Vec Ideal S5000x1 .f32) (x2 : Vec Ideal S5000x128 .f32)
    (x3 : Vec Ideal S64x128 .f32) (x4 : Vec Ideal S1x64 .f32) (y : S5000x64.Idx)
    (S : S40000x64.Idx → EReal) (inv : S40000x1.Idx → EReal) (X : S40000x128.Idx → EReal)
    (W : S64x128.Idx → EReal) (b : S1x64.Idx → EReal) (i : S40000x64.Idx)
    (h0 : x0 y = S i)
    (h1 : x1 (ix2 (y 0) 0) = inv (ix2 (i 0) 0))
    (h2 : ∀ k : Fin 128, x2 (ix2 (y 0) k) = X (ix2 (i 0) k))
    (h3 : ∀ k : Fin 128, x3 (ix2 (y 1) k) = W (ix2 (i 1) k))
    (h4 : x4 (ix2 0 (y 1)) = b (ix2 0 (i 1))) :
    k1_pay1 (F := Ideal) x0 x1 x2 x3 x4 y = Cert.Sage.epiRelu (N := 40000) (K := 128) (H := 64) S inv X W b i := by
  obtain ⟨p, q, rfl⟩ : ∃ (p : Fin 5000) (q : Fin 64), y = ix2 p q := ⟨y 0, y 1, eq_ix2 y⟩
  rw [pay1_apply]
  unfold Cert.Sage.epiRelu Cert.Sage.epiLin Cert.Sage.projNT
  rw [h0, ← h1, ← h4]
  refine congrArg (fun s => max (_ + s) 0) (Finset.sum_congr rfl fun k _ => ?_)
  rw [← h2 k, ← h3 k]

/-- The printed index maps, decided over the eight grid points: the three row-blocked inputs and the output sit at
    block row `t`, block column 0; the weights and the bias row stay at block (0, 0). -/
theorem idx_facts1 : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT `t` WRITES BACK is block `t` of the whole-array update of the arrays as the region finds them: entry
    (p, q) of the block is array row `5000 t + p`, and each input block is read at the same row offset (the weights and
    the bias row whole). -/
theorem flushed1_eq (c : Dev nD) (t : Fin cfg1.N) :
    (dat1 (F := Ideal) V c).flushed 5 t = ((cfg1.win 5).blk t).view.read (Elt Ideal)
      (Cert.Sage.epiRelu (N := 40000) (K := 128) (H := 64) (V c main_v24) (V c main_v13) (V c main_arg0) (V c main_arg4) (V c main_v25)) := by
  show (cfg1.win 5).cut (grid1.coords t) ((dat1 (F := Ideal) V c).after 5 t) = _
  rw [after1_5]
  unfold out1_5
  rw [View.canon_unit_zero hz]
  simp only [View.ld_unit_zero (S := S5000x64) hz, View.ld_unit_zero (S := S5000x1) hz, View.ld_unit_zero (S := S5000x128) hz,
    View.ld_unit_zero (S := S64x128) hz, View.ld_unit_zero (S := S1x64) hz]
  obtain ⟨e00, e01, e10, e11, e20, e21, e30, e31, e40, e41, e50, e51⟩ := idx_facts1 t
  funext j
  show k1_pay1 (F := Ideal) (iblk1 V c 0 t) (iblk1 V c 1 t) (iblk1 V c 2 t) (iblk1 V c 3 t) (iblk1 V c 4 t) j
    = Cert.Sage.epiRelu (N := 40000) (K := 128) (H := 64) (V c main_v24) (V c main_v13) (V c main_arg0) (V c main_arg4) (V c main_v25) (((cfg1.win 5).blk t).view.emb j)
  refine pay1_at (iblk1 V c 0 t) (iblk1 V c 1 t) (iblk1 V c 2 t) (iblk1 V c 3 t) (iblk1 V c 4 t) j
    (V c main_v24) (V c main_v13) (V c main_arg0) (V c main_arg4) (V c main_v25) (((cfg1.win 5).blk t).view.emb j) ?_ ?_ (fun k => ?_) (fun k => ?_) ?_
  · show V c main_v24 (((cfg1.win 0).blk t).view.emb j) = V c main_v24 (((cfg1.win 5).blk t).view.emb j)
    refine congrArg (V c main_v24) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 64 + 1 * (j 1).val = win1_5.index t (1 : Fin 2) * 64 + 1 * (j 1).val; omega
  · show V c main_v13 (((cfg1.win 1).blk t).view.emb (ix2 (j 0) 0)) = V c main_v13 (ix2 ((((cfg1.win 5).blk t).view.emb j) 0) 0)
    refine congrArg (V c main_v13) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 1 + 1 * 0 = 0; omega
  · show V c main_arg0 (((cfg1.win 2).blk t).view.emb (ix2 (j 0) k)) = V c main_arg0 (ix2 ((((cfg1.win 5).blk t).view.emb j) 0) k)
    refine congrArg (V c main_arg0) (funext fun a => Fin.ext ?_)
    match a with
    | ⟨0, _⟩ => show win1_2.index t (0 : Fin 2) * 5000 + 1 * (j 0).val = win1_5.index t (0 : Fin 2) * 5000 + 1 * (j 0).val; omega
    | ⟨1, _⟩ => show win1_2.index t (1 : Fin 2) * 128 + 1 * k.val = k.val; omega
  · show V c main_arg4 (((cfg1.win 3).blk t).view.emb (ix2 (j 1) k)) = V c main_arg4 (ix2 ((((cfg1.win 5).blk t).view.emb j) 1) k)
    refine congrArg (V c main_arg4) (funext fun a => Fin.ext ?_)
    match a with
    | ⟨0, _⟩ => show win1_3.index t (0 : Fin 2) * 64 + 1 * (j 1).val = win1_5.index t (1 : Fin 2) * 64 + 1 * (j 1).val; omega
    | ⟨1, _⟩ => show win1_3.index t (1 : Fin 2) * 128 + 1 * k.val = k.val; omega
  · show V c main_v25 (((cfg1.win 4).blk t).view.emb (ix2 0 (j 1))) = V c main_v25 (ix2 0 ((((cfg1.win 5).blk t).view.emb j) 1))
    refine congrArg (V c main_v25) (funext fun a => Fin.ext ?_)
    match a with
    | ⟨0, _⟩ => show win1_4.index t (0 : Fin 2) * 1 + 1 * 0 = 0; omega
    | ⟨1, _⟩ => show win1_4.index t (1 : Fin 2) * 64 + 1 * (j 1).val = win1_5.index t (1 : Fin 2) * 64 + 1 * (j 1).val; omega

/-- An index of the output array is in point `t`'s block iff each coordinate is in the block's range on its axis. -/
theorem mem_blk1 (t : Fin cfg1.N) (i : S40000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v26).slice (win1_5.rect t)).set ↔ _
  rw [View.set_slice_whole, Rect.mem_set_unit]
  exact Iff.rfl

/-- The eight blocks of 5000 rows tile the 40000 rows: row `r` lies in the block of point `r / 5000`. -/
theorem cover1 (i : S40000x64.Idx) : ∃ t : Fin cfg1.N, (cfg1.win 5).flush t = true ∧ i ∈ ((cfg1.win 5).blk t).view.set := by
  have hi0 : (i 0).val < 40000 := (i 0).isLt
  have hi1 : (i 1).val < 64 := (i 1).isLt
  obtain ⟨t, ht⟩ : ∃ t : Fin cfg1.N, t.val = (i 0).val / 5000 :=
    ⟨⟨(i 0).val / 5000, by show (i 0).val / 5000 < grid1.N; rw [N_1]; omega⟩, rfl⟩
  obtain ⟨e00, e01, e10, e11, e20, e21, e30, e31, e40, e41, e50, e51⟩ := idx_facts1 t
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- THE OUTPUT ARRAY after the eight points: the whole-array update of the arrays the region found. -/
theorem final1 (c : Dev nD) : (dat1 (F := Ideal) V c).arrAt 5 cfg1.N
    = Cert.Sage.epiRelu (N := 40000) (K := 128) (H := 64) (V c main_v24) (V c main_v13) (V c main_arg0) (V c main_arg4) (V c main_v25) :=
  (dat1 (F := Ideal) V c).arrAt_eq_of_cover 5
    (Cert.Sage.epiRelu (N := 40000) (K := 128) (H := 64) (V c main_v24) (V c main_v13) (V c main_arg0) (V c main_arg4) (V c main_v25))
    (fun t _ => flushed1_eq V c t) cover1

end Cert.KernelIdeal.RegionValue

end
-- ==== Proof.KRegion2.lean ====
/-
  The second projection region, from blocks to the whole array. As in the first layer the region walks eight grid
  points; at point t it multiplies rows 5000·t … 5000·t + 4999 of the hidden features X : [40000, 64] against the
  resident weights W : [64, 64], both contracted on their last axis, and writes the 5000 × 64 product back as block
  row t of the output. Entry (p, q) of a block is ∑ k, X[5000·t + p, k] · W[q, k], which reads one row of X and one
  row of W only, so the block is the restriction of the whole-array product X Wᵀ to its rows; the eight blocks tile
  the 40000 rows and the output array ends as X Wᵀ. The reshape to the same shape and the change of float format
  before the product are the identity on the extended reals, and the accumulator is the zero word.
-/
import proofs.«162418_j19636590477698_2_alg».proof.Proof.Gen.KernelIdeal.Frame
import proofs.«162418_j19636590477698_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.ValueIdx Idealize.ShloMosaic.TcCoe Idealize.SL.Sem
open Idealize.ShloMosaic.Pipeline (Dat Cfg Window)
open Cert.KernelIdeal Cert.KernelIdeal.Gen

namespace Cert.KernelIdeal.RegionValue

theorem lhs2_0 (i : S5000x64.Idx) (k : dot_S5000x64_S64x64_S5000x64_1_1_0_0_n_n.contr.Idx) :
    (dot_S5000x64_S64x64_S5000x64_1_1_0_0_n_n.lhsIdx i k 0).val = (i 0).val := by
  unfold DotDims.lhsIdx
  rw [dif_neg (show ¬(0 : Fin S5000x64.rank) ∈ dot_S5000x64_S64x64_S5000x64_1_1_0_0_n_n.lhsBatch by decide), dif_pos (show (0 : Fin S5000x64.rank) ∈ dot_S5000x64_S64x64_S5000x64_1_1_0_0_n_n.lhsNonContracting by decide)]
  rfl
theorem lhs2_1 (i : S5000x64.Idx) (k : dot_S5000x64_S64x64_S5000x64_1_1_0_0_n_n.contr.Idx) :
    (dot_S5000x64_S64x64_S5000x64_1_1_0_0_n_n.lhsIdx i k 1).val = (k ⟨0, by decide⟩).val :=
  dot_S5000x64_S64x64_S5000x64_1_1_0_0_n_n.lhsIdx_val_of_single rfl i k
theorem rhs2_0 (i : S5000x64.Idx) (k : dot_S5000x64_S64x64_S5000x64_1_1_0_0_n_n.contr.Idx) :
    (dot_S5000x64_S64x64_S5000x64_1_1_0_0_n_n.rhsIdx i k 0).val = (i 1).val := by
  unfold DotDims.rhsIdx
  rw [dif_neg (show ¬(0 : Fin S64x64.rank) ∈ dot_S5000x64_S64x64_S5000x64_1_1_0_0_n_n.rhsBatch by decide), dif_pos (show (0 : Fin S64x64.rank) ∈ dot_S5000x64_S64x64_S5000x64_1_1_0_0_n_n.rhsNonContracting by decide)]
  rfl
theorem rhs2_1 (i : S5000x64.Idx) (k : dot_S5000x64_S64x64_S5000x64_1_1_0_0_n_n.contr.Idx) :
    (dot_S5000x64_S64x64_S5000x64_1_1_0_0_n_n.rhsIdx i k 1).val = (k ⟨0, by decide⟩).val :=
  dot_S5000x64_S64x64_S5000x64_1_1_0_0_n_n.rhsIdx_val_of_single rfl i k

/-- One block's product at an entry: row p of the feature block against row q of the weights, summed over the 64 hidden features. -/
theorem pay2_apply (x0 : Vec Ideal S5000x64 .f32) (x1 : Vec Ideal S64x64 .f32) (p : Fin 5000) (q : Fin 64) :
    Gen.k2_pay1 (F := Ideal) x0 x1 (ix2 p q) = ∑ k : Fin 64, x0 (ix2 p k) * x1 (ix2 q k) := by
  unfold Gen.k2_pay1
  simp only [matmul, shapeCast_self]
  rw [Ideal.matmul_constant_zero_apply, ← Equiv.sum_comp (contrEquiv1 dot_S5000x64_S64x64_S5000x64_1_1_0_0_n_n 64 rfl rfl).symm]
  refine Finset.sum_congr rfl fun k _ => ?_
  have hk := contrEquiv1_symm_val dot_S5000x64_S64x64_S5000x64_1_1_0_0_n_n 64 rfl rfl k
  have el : dot_S5000x64_S64x64_S5000x64_1_1_0_0_n_n.lhsIdx (ix2 p q) ((contrEquiv1 dot_S5000x64_S64x64_S5000x64_1_1_0_0_n_n 64 rfl rfl).symm k) = ix2 p k := funext fun a => Fin.ext (by
    match a with
    | ⟨0, _⟩ => exact lhs2_0 _ _
    | ⟨1, _⟩ => exact (lhs2_1 _ _).trans hk)
  have er : dot_S5000x64_S64x64_S5000x64_1_1_0_0_n_n.rhsIdx (ix2 p q) ((contrEquiv1 dot_S5000x64_S64x64_S5000x64_1_1_0_0_n_n 64 rfl rfl).symm k) = ix2 q k := funext fun a => Fin.ext (by
    match a with
    | ⟨0, _⟩ => exact rhs2_0 _ _
    | ⟨1, _⟩ => exact (rhs2_1 _ _).trans hk)
  rw [el, er]
  rfl

/-- The block product at any entry of the block. -/
theorem pay2_at (x0 : Vec Ideal S5000x64 .f32) (x1 : Vec Ideal S64x64 .f32) (y : S5000x64.Idx) :
    Gen.k2_pay1 (F := Ideal) x0 x1 y = ∑ k : Fin 64, x0 (ix2 (y 0) k) * x1 (ix2 (y 1) k) := by
  obtain ⟨p, q, rfl⟩ : ∃ (p : Fin 5000) (q : Fin 64), y = ix2 p q := ⟨y 0, y 1, eq_ix2 y⟩
  exact pay2_apply x0 x1 p q

theorem hz2 : (![0, 0] : Fin 2 → Nat) = fun _ => 0 := funext fun a => by fin_cases a <;> rfl

/-- Where the blocks sit, decided over the eight grid points: the feature block and the output block of point t are both
    block row t, in block column 0; the weights are always their one whole block. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

variable (V : (c : Dev nD) → (b : Ref sig .tc) → Buf (Elt Ideal) ((c : Thread nD τ).loc b))

/-- What grid point t writes back is block t of the whole-array projection of the arrays as the region finds them. -/
theorem flushed2_eq (c : Dev nD) (t : Fin cfg2.N) :
    (Gen.dat2 (F := Ideal) V c).flushed 2 t = ((cfg2.win 2).blk t).view.read (Elt Ideal)
      (Cert.Sage.projNT (N := 40000) (K := 64) (H := 64) (V c main_v26) (V c main_arg5)) := by
  show (cfg2.win 2).cut (grid2.coords t) ((Gen.dat2 (F := Ideal) V c).after 2 t) = _
  rw [Gen.after2_2]
  unfold Gen.out2_2
  rw [View.canon_unit_zero hz2]
  simp only [View.ld_unit_zero (S := S5000x64) hz2, View.ld_unit_zero (S := S64x64) hz2]
  obtain ⟨e0, e1, e2, e3, e4, e5⟩ := idx_facts2 t
  funext j
  show Gen.k2_pay1 (F := Ideal) (Gen.iblk2 V c 0 t) (Gen.iblk2 V c 1 t) j
     = Cert.Sage.projNT (N := 40000) (K := 64) (H := 64) (V c main_v26) (V c main_arg5) (((cfg2.win 2).blk t).view.emb j)
  refine (pay2_at (Gen.iblk2 V c 0 t) (Gen.iblk2 V c 1 t) j).trans ?_
  unfold Cert.Sage.projNT
  refine Finset.sum_congr rfl fun k _ => ?_
  have h0 : ((cfg2.win 0).blk t).view.emb (ix2 (j 0) k) = ix2 ((((cfg2.win 2).blk t).view.emb j) 0) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * k.val = k.val; omega
  have h1 : ((cfg2.win 1).blk t).view.emb (ix2 (j 1) k) = ix2 ((((cfg2.win 2).blk t).view.emb j) 1) k := by
    funext a; apply Fin.ext
    match a with
    | ⟨0, _⟩ => show win2_1.index t (0 : Fin 2) * 64 + 1 * (j 1).val = win2_2.index t (1 : Fin 2) * 64 + 1 * (j 1).val; omega
    | ⟨1, _⟩ => show win2_1.index t (1 : Fin 2) * 64 + 1 * k.val = k.val; omega
  exact congrArg₂ (fun a b : EReal => a * b)
    (congrArg (V c main_v26 : S40000x64.Idx → EReal) h0)
    (congrArg (V c main_arg5 : S64x64.Idx → EReal) h1)

/-- A row-and-column index of the output array lies in point t's block iff each coordinate is in the block's range. -/
theorem mem_blk2 (t : Fin cfg2.N) (i : S40000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v27).slice (win2_2.rect t)).set ↔ _
  rw [View.set_slice_whole, Rect.mem_set_unit]
  exact Iff.rfl

/-- The eight blocks of 5000 rows tile the 40000 rows: row r is in the block of point r / 5000. -/
theorem cover2 (i : S40000x64.Idx) :
    ∃ t : Fin cfg2.N, (cfg2.win 2).flush t = true ∧ i ∈ ((cfg2.win 2).blk t).view.set := by
  have hi0 : (i 0).val < 40000 := (i 0).isLt
  have hi1 : (i 1).val < 64 := (i 1).isLt
  have ht : (i 0).val / 5000 < cfg2.N := by show _ < 8; omega
  obtain ⟨e0, e1, e2, e3, e4, e5⟩ := idx_facts2 ⟨(i 0).val / 5000, ht⟩
  refine ⟨⟨(i 0).val / 5000, ht⟩, Gen.flush2_2 _, ?_⟩
  rw [mem_blk2]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 64 ≤ (i 1).val ∧ (i 1).val < win2_2.index ⟨(i 0).val / 5000, ht⟩ (1 : Fin 2) * 64 + 64
    rw [e5]; omega

/-- THE OUTPUT ARRAY of the second projection region after its eight points: the whole-array product X Wᵀ of the node
    features and the weights as the region finds them. -/
theorem final2 (c : Dev nD) :
    (Gen.dat2 (F := Ideal) V c).arrAt 2 cfg2.N
      = Cert.Sage.projNT (N := 40000) (K := 64) (H := 64) (V c main_v26) (V c main_arg5) :=
  (Gen.dat2 (F := Ideal) V c).arrAt_eq_of_cover 2 _ (fun t _ => flushed2_eq V c t) cover2

end Cert.KernelIdeal.RegionValue

end
-- ==== Proof.KRegion3.lean ====
/-
  The node update of one layer, from blocks to the whole array. The region runs over eight grid points; point `t`
  holds rows `5000 t … 5000 t + 4999` of the three row-blocked inputs (aggregated messages [40000,64], the column of
  reciprocal neighbour counts [40000,1], the features [40000,64]) and the whole weights [64,64] and bias row [1,64], and
  writes rows `5000 t … 5000 t + 4999` of the output. Entry (p, q) of what it writes is
  `S[p, q] · inv[p, 0] + b[0, q] + ∑ k, X[p, k] · W[q, k]`: every term reads row `p` of a row-blocked input or an entry of
  a resident one, so the block is the restriction to its rows of ONE function of the whole arrays, and since the eight
  blocks tile the 40000 rows the output array ends as that function (`final3`). The matrix product contracts both
  operands on their last axis (`X Wᵀ`); the change of float format before it is the identity on extended reals, and
  the accumulator it starts from is zero.
-/
import proofs.«162418_j19636590477698_2_alg».proof.Proof.Gen.KernelIdeal.Frame
import proofs.«162418_j19636590477698_2_alg».proof.Proof.Spec
import proofs.«162418_j19636590477698_2_alg».proof.Proof.KRegion1
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat Cfg Window)
open Cert.KernelIdeal Cert.KernelIdeal.Gen

namespace Cert.KernelIdeal.RegionValue

theorem matmulNT64_lhs0 (i : S5000x64.Idx) (r : dot_S5000x64_S64x64_S5000x64_1_1_0_0_n_n.contr.Idx) :
    (dot_S5000x64_S64x64_S5000x64_1_1_0_0_n_n.lhsIdx i r 0).val = (i 0).val := by
  unfold DotDims.lhsIdx
  rw [dif_neg (show ¬(0 : Fin S5000x64.rank) ∈ dot_S5000x64_S64x64_S5000x64_1_1_0_0_n_n.lhsBatch by decide), dif_pos (show (0 : Fin S5000x64.rank) ∈ dot_S5000x64_S64x64_S5000x64_1_1_0_0_n_n.lhsNonContracting by decide)]
  rfl
theorem matmulNT64_lhs1 (i : S5000x64.Idx) (r : dot_S5000x64_S64x64_S5000x64_1_1_0_0_n_n.contr.Idx) :
    (dot_S5000x64_S64x64_S5000x64_1_1_0_0_n_n.lhsIdx i r 1).val = (r ⟨0, by decide⟩).val :=
  dot_S5000x64_S64x64_S5000x64_1_1_0_0_n_n.lhsIdx_val_of_single rfl i r
theorem matmulNT64_rhs0 (i : S5000x64.Idx) (r : dot_S5000x64_S64x64_S5000x64_1_1_0_0_n_n.contr.Idx) :
    (dot_S5000x64_S64x64_S5000x64_1_1_0_0_n_n.rhsIdx i r 0).val = (i 1).val := by
  unfold DotDims.rhsIdx
  rw [dif_neg (show ¬(0 : Fin S64x64.rank) ∈ dot_S5000x64_S64x64_S5000x64_1_1_0_0_n_n.rhsBatch by decide), dif_pos (show (0 : Fin S64x64.rank) ∈ dot_S5000x64_S64x64_S5000x64_1_1_0_0_n_n.rhsNonContracting by decide)]
  rfl
theorem matmulNT64_rhs1 (i : S5000x64.Idx) (r : dot_S5000x64_S64x64_S5000x64_1_1_0_0_n_n.contr.Idx) :
    (dot_S5000x64_S64x64_S5000x64_1_1_0_0_n_n.rhsIdx i r 1).val = (r ⟨0, by decide⟩).val :=
  dot_S5000x64_S64x64_S5000x64_1_1_0_0_n_n.rhsIdx_val_of_single rfl i r

/-- The product of a [5000,64] block with the TRANSPOSE of a [64,64] matrix, accumulated into zero: entry (p, q) is
    the sum over the shared last axis k of a[p, k] · b[q, k]. -/
theorem matmulNT64_apply (a : FVec Ideal S5000x64 .bf16) (b : FVec Ideal S64x64 .bf16) (p : Fin 5000) (q : Fin 64) :
    matmul (F := Ideal) dot_S5000x64_S64x64_S5000x64_1_1_0_0_n_n none a b (constant (F := Ideal) S5000x64 .f32 0x00000000#32) (ix2 p q)
      = ∑ k : Fin 64, a (ix2 p k) * b (ix2 q k) := by
  simp only [matmul]
  rw [Ideal.matmul_constant_zero_apply, ← Equiv.sum_comp (contrEquiv1 dot_S5000x64_S64x64_S5000x64_1_1_0_0_n_n 64 rfl rfl).symm]
  refine Finset.sum_congr rfl fun k _ => ?_
  have hk := contrEquiv1_symm_val dot_S5000x64_S64x64_S5000x64_1_1_0_0_n_n 64 rfl rfl k
  have el : dot_S5000x64_S64x64_S5000x64_1_1_0_0_n_n.lhsIdx (ix2 p q) ((contrEquiv1 dot_S5000x64_S64x64_S5000x64_1_1_0_0_n_n 64 rfl rfl).symm k) = ix2 p k := funext fun a => Fin.ext (by
    match a with
    | ⟨0, _⟩ => exact matmulNT64_lhs0 _ _
    | ⟨1, _⟩ => exact (matmulNT64_lhs1 _ _).trans hk)
  have er : dot_S5000x64_S64x64_S5000x64_1_1_0_0_n_n.rhsIdx (ix2 p q) ((contrEquiv1 dot_S5000x64_S64x64_S5000x64_1_1_0_0_n_n 64 rfl rfl).symm k) = ix2 q k := funext fun a => Fin.ext (by
    match a with
    | ⟨0, _⟩ => exact matmulNT64_rhs0 _ _
    | ⟨1, _⟩ => exact (matmulNT64_rhs1 _ _).trans hk)
  rw [el, er]

/-- What one grid point computes, entry by entry: the block of aggregated messages scaled row by row by the column of
    reciprocal neighbour counts, plus the bias row, plus the block of features times the transposed weights. -/
theorem pay3_apply (v0 : Vec Ideal S5000x64 .f32) (v2 : Vec Ideal S5000x1 .f32) (v6 : Vec Ideal S5000x64 .f32)
    (v9 : Vec Ideal S64x64 .f32) (v12 : Vec Ideal S1x64 .f32) (p : Fin 5000) (q : Fin 64) :
    k3_pay1 (F := Ideal) v0 v2 v6 v9 v12 (ix2 p q)
      = v0 (ix2 p q) * v2 (ix2 p 0) + v12 (ix2 0 q) + ∑ k : Fin 64, v6 (ix2 p k) * v9 (ix2 q k) := by
  unfold k3_pay1
  simp only [shapeCast_self]
  rw [addf_apply, addf_apply, mulf_apply]
  rw [colBroadcast_apply, rowBroadcast_apply, matmulNT64_apply]
  simp only [truncf_apply]

variable (V : (c : Dev nD) → (b : Ref sig .tc) → Buf (Elt Ideal) ((c : Thread nD τ).loc b))

/-- One entry of the point's result against the whole-array update: if the five loaded blocks hold, at the entries the
    block entry `y` depends on, what the five arrays hold at the entries the array entry `i` depends on, then the
    block's entry `y` is the update's entry `i`. -/
theorem pay3_at (x0 : Vec Ideal S5000x64 .f32) (x1 : Vec Ideal S5000x1 .f32) (x2 : Vec Ideal S5000x64 .f32)
    (x3 : Vec Ideal S64x64 .f32) (x4 : Vec Ideal S1x64 .f32) (y : S5000x64.Idx)
    (S : S40000x64.Idx → EReal) (inv : S40000x1.Idx → EReal) (X : S40000x64.Idx → EReal)
    (W : S64x64.Idx → EReal) (b : S1x64.Idx → EReal) (i : S40000x64.Idx)
    (h0 : x0 y = S i)
    (h1 : x1 (ix2 (y 0) 0) = inv (ix2 (i 0) 0))
    (h2 : ∀ k : Fin 64, x2 (ix2 (y 0) k) = X (ix2 (i 0) k))
    (h3 : ∀ k : Fin 64, x3 (ix2 (y 1) k) = W (ix2 (i 1) k))
    (h4 : x4 (ix2 0 (y 1)) = b (ix2 0 (i 1))) :
    k3_pay1 (F := Ideal) x0 x1 x2 x3 x4 y = Cert.Sage.epiLin (N := 40000) (K := 64) (H := 64) S inv X W b i := by
  obtain ⟨p, q, rfl⟩ : ∃ (p : Fin 5000) (q : Fin 64), y = ix2 p q := ⟨y 0, y 1, eq_ix2 y⟩
  rw [pay3_apply]
  unfold Cert.Sage.epiLin Cert.Sage.projNT
  rw [h0, ← h1, ← h4]
  refine congrArg (fun s => _ + s) (Finset.sum_congr rfl fun k _ => ?_)
  rw [← h2 k, ← h3 k]

/-- The printed index maps, decided over the eight grid points: the three row-blocked inputs and the output sit at
    block row `t`, block column 0; the weights and the bias row stay at block (0, 0). -/
theorem idx_facts3 : ∀ t : Fin cfg3.N,
      win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- WHAT POINT `t` WRITES BACK is block `t` of the whole-array update of the arrays as the region finds them: entry
    (p, q) of the block is array row `5000 t + p`, and each input block is read at the same row offset (the weights and
    the bias row whole). -/
theorem flushed3_eq (c : Dev nD) (t : Fin cfg3.N) :
    (dat3 (F := Ideal) V c).flushed 5 t = ((cfg3.win 5).blk t).view.read (Elt Ideal)
      (Cert.Sage.epiLin (N := 40000) (K := 64) (H := 64) (V c main_v37) (V c main_v13) (V c main_v26) (V c main_arg7) (V c main_v38)) := by
  show (cfg3.win 5).cut (grid3.coords t) ((dat3 (F := Ideal) V c).after 5 t) = _
  rw [after3_5]
  unfold out3_5
  rw [View.canon_unit_zero hz]
  simp only [View.ld_unit_zero (S := S5000x64) hz, View.ld_unit_zero (S := S5000x1) hz, View.ld_unit_zero (S := S5000x64) hz,
    View.ld_unit_zero (S := S64x64) hz, View.ld_unit_zero (S := S1x64) hz]
  obtain ⟨e00, e01, e10, e11, e20, e21, e30, e31, e40, e41, e50, e51⟩ := idx_facts3 t
  funext j
  show k3_pay1 (F := Ideal) (iblk3 V c 0 t) (iblk3 V c 1 t) (iblk3 V c 2 t) (iblk3 V c 3 t) (iblk3 V c 4 t) j
    = Cert.Sage.epiLin (N := 40000) (K := 64) (H := 64) (V c main_v37) (V c main_v13) (V c main_v26) (V c main_arg7) (V c main_v38) (((cfg3.win 5).blk t).view.emb j)
  refine pay3_at (iblk3 V c 0 t) (iblk3 V c 1 t) (iblk3 V c 2 t) (iblk3 V c 3 t) (iblk3 V c 4 t) j
    (V c main_v37) (V c main_v13) (V c main_v26) (V c main_arg7) (V c main_v38) (((cfg3.win 5).blk t).view.emb j) ?_ ?_ (fun k => ?_) (fun k => ?_) ?_
  · show V c main_v37 (((cfg3.win 0).blk t).view.emb j) = V c main_v37 (((cfg3.win 5).blk t).view.emb j)
    refine congrArg (V c main_v37) (funext fun a => Fin.ext ?_)
    match a with
    | ⟨0, _⟩ => show win3_0.index t (0 : Fin 2) * 5000 + 1 * (j 0).val = win3_5.index t (0 : Fin 2) * 5000 + 1 * (j 0).val; omega
    | ⟨1, _⟩ => show win3_0.index t (1 : Fin 2) * 64 + 1 * (j 1).val = win3_5.index t (1 : Fin 2) * 64 + 1 * (j 1).val; omega
  · show V c main_v13 (((cfg3.win 1).blk t).view.emb (ix2 (j 0) 0)) = V c main_v13 (ix2 ((((cfg3.win 5).blk t).view.emb j) 0) 0)
    refine congrArg (V c main_v13) (funext fun a => Fin.ext ?_)
    match a with
    | ⟨0, _⟩ => show win3_1.index t (0 : Fin 2) * 5000 + 1 * (j 0).val = win3_5.index t (0 : Fin 2) * 5000 + 1 * (j 0).val; omega
    | ⟨1, _⟩ => show win3_1.index t (1 : Fin 2) * 1 + 1 * 0 = 0; omega
  · show V c main_v26 (((cfg3.win 2).blk t).view.emb (ix2 (j 0) k)) = V c main_v26 (ix2 ((((cfg3.win 5).blk t).view.emb j) 0) k)
    refine congrArg (V c main_v26) (funext fun a => Fin.ext ?_)
    match a with
    | ⟨0, _⟩ => show win3_2.index t (0 : Fin 2) * 5000 + 1 * (j 0).val = win3_5.index t (0 : Fin 2) * 5000 + 1 * (j 0).val; omega
    | ⟨1, _⟩ => show win3_2.index t (1 : Fin 2) * 64 + 1 * k.val = k.val; omega
  · show V c main_arg7 (((cfg3.win 3).blk t).view.emb (ix2 (j 1) k)) = V c main_arg7 (ix2 ((((cfg3.win 5).blk t).view.emb j) 1) k)
    refine congrArg (V c main_arg7) (funext fun a => Fin.ext ?_)
    match a with
    | ⟨0, _⟩ => show win3_3.index t (0 : Fin 2) * 64 + 1 * (j 1).val = win3_5.index t (1 : Fin 2) * 64 + 1 * (j 1).val; omega
    | ⟨1, _⟩ => show win3_3.index t (1 : Fin 2) * 64 + 1 * k.val = k.val; omega
  · show V c main_v38 (((cfg3.win 4).blk t).view.emb (ix2 0 (j 1))) = V c main_v38 (ix2 0 ((((cfg3.win 5).blk t).view.emb j) 1))
    refine congrArg (V c main_v38) (funext fun a => Fin.ext ?_)
    match a with
    | ⟨0, _⟩ => show win3_4.index t (0 : Fin 2) * 1 + 1 * 0 = 0; omega
    | ⟨1, _⟩ => show win3_4.index t (1 : Fin 2) * 64 + 1 * (j 1).val = win3_5.index t (1 : Fin 2) * 64 + 1 * (j 1).val; omega

/-- An index of the output array is in point `t`'s block iff each coordinate is in the block's range on its axis. -/
theorem mem_blk3 (t : Fin cfg3.N) (i : S40000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v39).slice (win3_5.rect t)).set ↔ _
  rw [View.set_slice_whole, Rect.mem_set_unit]
  exact Iff.rfl

/-- The eight blocks of 5000 rows tile the 40000 rows: row `r` lies in the block of point `r / 5000`. -/
theorem cover3 (i : S40000x64.Idx) : ∃ t : Fin cfg3.N, (cfg3.win 5).flush t = true ∧ i ∈ ((cfg3.win 5).blk t).view.set := by
  have hi0 : (i 0).val < 40000 := (i 0).isLt
  have hi1 : (i 1).val < 64 := (i 1).isLt
  obtain ⟨t, ht⟩ : ∃ t : Fin cfg3.N, t.val = (i 0).val / 5000 :=
    ⟨⟨(i 0).val / 5000, by show (i 0).val / 5000 < grid3.N; rw [N_3]; omega⟩, rfl⟩
  obtain ⟨e00, e01, e10, e11, e20, e21, e30, e31, e40, e41, e50, e51⟩ := idx_facts3 t
  refine ⟨t, flush3_5 t, ?_⟩
  rw [mem_blk3]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 64 ≤ (i 1).val ∧ (i 1).val < win3_5.index t (1 : Fin 2) * 64 + 64; omega

/-- THE OUTPUT ARRAY after the eight points: the whole-array update of the arrays the region found. -/
theorem final3 (c : Dev nD) : (dat3 (F := Ideal) V c).arrAt 5 cfg3.N
    = Cert.Sage.epiLin (N := 40000) (K := 64) (H := 64) (V c main_v37) (V c main_v13) (V c main_v26) (V c main_arg7) (V c main_v38) :=
  (dat3 (F := Ideal) V c).arrAt_eq_of_cover 5
    (Cert.Sage.epiLin (N := 40000) (K := 64) (H := 64) (V c main_v37) (V c main_v13) (V c main_v26) (V c main_arg7) (V c main_v38))
    (fun t _ => flushed3_eq V c t) cover3

end Cert.KernelIdeal.RegionValue

end
-- ==== Proof.LibERealSum.lean ====
/-
  Finite sums on the extended reals.

  The extended reals are not a semiring: `(a + b) · c = a · c + b · c` fails when `a` and `b` are opposite
  infinities. Two facts survive and are what a proof needs when a quotient by a positive real has to cross a
  finite sum: a sum of real numbers, read in the extended reals, is the real sum; and multiplication by a
  NONNEGATIVE REAL distributes over a finite sum of arbitrary extended reals.
-/
import Mathlib.Data.EReal.Inv

namespace Cert.Lib

open scoped BigOperators

/-- A finite sum of reals, read in the extended reals, is the real sum. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Multiplication by a nonnegative real distributes over a finite sum of arbitrary extended reals. -/
theorem sum_mul_coe {ι : Type*} (s : Finset ι) (x : ι → EReal) {c : ℝ} (hc : 0 ≤ c) :
    (∑ i ∈ s, x i) * (c : EReal) = ∑ i ∈ s, x i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

end Cert.Lib
-- ==== Proof.Law.lean ====
/-
  The one algebraic law of this network, over abstract index types.

  A layer sends node features `f` to `mean ⋅ Wlᵀ + b + f ⋅ Wrᵀ`, where the mean at node `i` is over the edges
  `S i` landing on `i`, each bringing the features of its source node `g e`, divided by `max (#S i) 1`.
  Two orders of evaluation: AGGREGATE-THEN-PROJECT (`layerRef`: sum the raw features, divide, then multiply by `Wl`)
  and PROJECT-THEN-AGGREGATE (`layerKer`: multiply every node's features by `Wl` first, sum the projected rows,
  multiply by the reciprocal count). On real data both are the real number `layerR`: the sums are finite, the
  divisor is a nonzero real, and the product distributes over the sums and the two sums exchange. On the extended
  reals this needs every entry to be a real — the law is stated for coercions of real data — and its conclusion
  names the real value, so that the next layer can use it again.
-/
import Mathlib.Data.EReal.Inv
import Idealize.ShloMosaic.PureOps.Ideal
import proofs.«162418_j19636590477698_2_alg».proof.Proof.LibERealSum

noncomputable section

open Idealize.ShloMosaic

namespace Cert.Sage

open scoped BigOperators

variable {E N K H : Type} [Fintype K]

/-- Aggregate, divide by the count, then project (the count itself a sum of ones over the same edges). -/
def layerRef (S : N → Finset E) (g : E → N) (f : N → K → EReal) (Wl Wr : H → K → EReal) (b : H → EReal) :
    N → H → EReal :=
  fun i h => (∑ k, Ideal.div (0 + ∑ e ∈ S i, f (g e) k) (max (0 + ∑ _e ∈ S i, (1 : EReal)) 1) * Wl h k) + b h
    + ∑ k, f i k * Wr h k

/-- Project every node first, aggregate the projected rows, multiply by the reciprocal of the count `cnt`. -/
def layerKer (S : N → Finset E) (g : E → N) (cnt : N → EReal) (f : N → K → EReal) (Wl Wr : H → K → EReal)
    (b : H → EReal) : N → H → EReal :=
  fun i h => (0 + ∑ e ∈ S i, ∑ k, f (g e) k * Wl h k) * Ideal.div 1 (max (cnt i) 1) + b h + ∑ k, f i k * Wr h k

/-- The layer on real data. -/
def layerR (S : N → Finset E) (g : E → N) (f : N → K → ℝ) (Wl Wr : H → K → ℝ) (b : H → ℝ) : N → H → ℝ :=
  fun i h => (∑ k, ((∑ e ∈ S i, f (g e) k) * (1 / max ((S i).card : ℝ) 1)) * Wl h k) + b h + ∑ k, f i k * Wr h k

theorem count_ne_zero (n : ℕ) : max (n : ℝ) 1 ≠ 0 := by
  have : (1 : ℝ) ≤ max (n : ℝ) 1 := le_max_right _ _
  intro h; rw [h] at this; norm_num at this

/-- The count as a sum of ones is the real `max (#S) 1`. -/
theorem count_sum (S : Finset E) :
    max (0 + ∑ _e ∈ S, (1 : EReal)) 1 = ((max (S.card : ℝ) 1 : ℝ) : EReal) := by
  rw [zero_add, EReal.coe_strictMono.monotone.map_max, EReal.coe_one]
  congr 1
  rw [← EReal.coe_one, Cert.Lib.sum_coe]
  simp

/-- Aggregate-then-project on real data is the real layer. -/
theorem layerRef_coe (S : N → Finset E) (g : E → N) (f : N → K → ℝ) (Wl Wr : H → K → ℝ) (b : H → ℝ) (i : N) (h : H) :
    layerRef S g (fun n k => (f n k : EReal)) (fun h k => (Wl h k : EReal)) (fun h k => (Wr h k : EReal))
      (fun h => (b h : EReal)) i h = (layerR S g f Wl Wr b i h : EReal) := by
  unfold layerRef layerR
  rw [count_sum]
  simp only [zero_add, Cert.Lib.sum_coe, Ideal.div_coe (count_ne_zero _), ← EReal.coe_mul, ← EReal.coe_add]

/-- Project-then-aggregate on real data, with the count a real integer, is the same real layer. -/
theorem layerKer_coe (S : N → Finset E) (g : E → N) (f : N → K → ℝ) (Wl Wr : H → K → ℝ) (b : H → ℝ) (i : N) (h : H) :
    layerKer S g (fun i => ((((S i).card : ℤ) : ℝ) : EReal)) (fun n k => (f n k : EReal)) (fun h k => (Wl h k : EReal))
      (fun h k => (Wr h k : EReal)) (fun h => (b h : EReal)) i h = (layerR S g f Wl Wr b i h : EReal) := by
  unfold layerKer layerR
  have hc : max ((((S i).card : ℤ) : ℝ) : EReal) 1 = ((max ((S i).card : ℝ) 1 : ℝ) : EReal) := by
    rw [EReal.coe_strictMono.monotone.map_max, EReal.coe_one]; norm_num
  rw [hc, Ideal.div_coe (count_ne_zero _), one_mul]
  simp only [zero_add, Cert.Lib.sum_coe, ← EReal.coe_mul, ← EReal.coe_add]
  congr 2
  simp only [Finset.sum_mul]
  rw [Finset.sum_comm]
  congr 1
  exact Finset.sum_congr rfl fun k _ => Finset.sum_congr rfl fun e _ => by ring

/-- THE LAW: on real data the two orders of evaluation agree. -/
theorem layerKer_eq_layerRef (S : N → Finset E) (g : E → N) (f : N → K → ℝ) (Wl Wr : H → K → ℝ) (b : H → ℝ) :
    layerKer S g (fun i => ((((S i).card : ℤ) : ℝ) : EReal)) (fun n k => (f n k : EReal)) (fun h k => (Wl h k : EReal))
      (fun h k => (Wr h k : EReal)) (fun h => (b h : EReal))
    = layerRef S g (fun n k => (f n k : EReal)) (fun h k => (Wl h k : EReal)) (fun h k => (Wr h k : EReal))
      (fun h => (b h : EReal)) := by
  funext i h; rw [layerKer_coe, layerRef_coe]

/-! ## Two layers, the rectifier between -/

variable {H' : Type} [Fintype H]

/-- The network, project-then-aggregate in both layers. -/
def netKer (S : N → Finset E) (g : E → N) (cnt : N → EReal) (f : N → K → EReal) (W1l W1r : H → K → EReal)
    (b1 : H → EReal) (W2l W2r : H' → H → EReal) (b2 : H' → EReal) : N → H' → EReal :=
  layerKer S g cnt (fun n k => max (layerKer S g cnt f W1l W1r b1 n k) 0) W2l W2r b2

/-- The network, aggregate-then-project in both layers. -/
def netRef (S : N → Finset E) (g : E → N) (f : N → K → EReal) (W1l W1r : H → K → EReal)
    (b1 : H → EReal) (W2l W2r : H' → H → EReal) (b2 : H' → EReal) : N → H' → EReal :=
  layerRef S g (fun n k => max (layerRef S g f W1l W1r b1 n k) 0) W2l W2r b2

/-- THE LAW, for the two-layer network: the hidden features are again real (the maximum of two reals), so the
    one-layer law applies twice. -/
theorem netKer_eq_netRef (S : N → Finset E) (g : E → N) (f : N → K → ℝ) (W1l W1r : H → K → ℝ) (b1 : H → ℝ)
    (W2l W2r : H' → H → ℝ) (b2 : H' → ℝ) :
    netKer S g (fun i => ((((S i).card : ℤ) : ℝ) : EReal)) (fun n k => (f n k : EReal)) (fun h k => (W1l h k : EReal))
      (fun h k => (W1r h k : EReal)) (fun h => (b1 h : EReal)) (fun h k => (W2l h k : EReal))
      (fun h k => (W2r h k : EReal)) (fun h => (b2 h : EReal))
    = netRef S g (fun n k => (f n k : EReal)) (fun h k => (W1l h k : EReal))
      (fun h k => (W1r h k : EReal)) (fun h => (b1 h : EReal)) (fun h k => (W2l h k : EReal))
      (fun h k => (W2r h k : EReal)) (fun h => (b2 h : EReal)) := by
  unfold netKer netRef
  have hk : (fun n k => max (layerKer S g (fun i => ((((S i).card : ℤ) : ℝ) : EReal)) (fun n k => (f n k : EReal))
        (fun h k => (W1l h k : EReal)) (fun h k => (W1r h k : EReal)) (fun h => (b1 h : EReal)) n k) 0)
      = fun n k => ((max (layerR S g f W1l W1r b1 n k) 0 : ℝ) : EReal) := by
    funext n k; rw [layerKer_coe, EReal.coe_strictMono.monotone.map_max, EReal.coe_zero]
  have hr : (fun n k => max (layerRef S g (fun n k => (f n k : EReal))
        (fun h k => (W1l h k : EReal)) (fun h k => (W1r h k : EReal)) (fun h => (b1 h : EReal)) n k) 0)
      = fun n k => ((max (layerR S g f W1l W1r b1 n k) 0 : ℝ) : EReal) := by
    funext n k; rw [layerRef_coe, EReal.coe_strictMono.monotone.map_max, EReal.coe_zero]
  rw [hk, hr]
  exact layerKer_eq_layerRef S g (fun n k => max (layerR S g f W1l W1r b1 n k) 0) W2l W2r b2

end Cert.Sage

end
-- ==== Proof.Net.lean ====
/-
  From array operations to the abstract layer.

  The graph an edge list defines: `inEdges DST i` is the set of edges whose destination word, read signed, is the row
  `i` (an edge whose destination is outside the array lands nowhere), and `srcOf SRC e` is the row edge `e` brings,
  its source word read signed and clamped into the array. With these, a tile update applied to "the projected rows
  gathered by source and accumulated by destination" is the project-then-aggregate layer of the law, entry by entry;
  and the column of reciprocal counts is `1 / max (count) 1` at each row.
-/
import proofs.«162418_j19636590477698_2_alg».proof.Proof.Spec
import proofs.«162418_j19636590477698_2_alg».proof.Proof.LibRowOps
import proofs.«162418_j19636590477698_2_alg».proof.Proof.Law
import Idealize.ShloMosaic.Lib.Pipeline.Value
import Idealize.ShloMosaic.Lib.ValueLayout

noncomputable section

open Idealize.ShloMosaic Idealize.ShloMosaic.ValueIdx

namespace Cert.Sage

/-- A two-axis array as a function of its two coordinates. -/
def cur {α : Type} {n0 n1 : Nat} (A : (⟨2, ![n0, n1]⟩ : Shape).Idx → α) : Fin n0 → Fin n1 → α := fun a b => A (ix2 a b)

/-- The edges landing on row `i`. -/
def inEdges (N : Nat) {E w : Nat} (DST : IVec ⟨2, ![E, 1]⟩ w) (i : Fin N) : Finset (Fin E) :=
  Finset.univ.filter (fun e : Fin E => Cert.Lib.row? N (DST (ix2 e 0)) = some i)

/-- The row an edge brings. -/
def srcOf (N : Nat) (hN : 0 < N) {E w : Nat} (SRC : IVec ⟨2, ![E, 1]⟩ w) (e : Fin E) : Fin N :=
  Cert.Lib.clampRow N hN (SRC (ix2 e 0))

/-- The f32 word of 1.0 is the real number 1. -/
theorem one_f32 : Ideal.ofBits .f32 0x3F800000#32 = 1 := by
  simp [Ideal.ofBits, Ideal.ieee, -EReal.coe_mul]; norm_num

/-- The tile update over the projected rows gathered by source and accumulated by destination into zeros is the
    project-then-aggregate layer. -/
theorem kerLayer_apply {N E K H w : Nat} (hN : 0 < N)
    (wfg : GatherDims.WF ⟨2, ![N, H]⟩ ⟨2, ![E, 1]⟩ ⟨2, ![E, H]⟩ [1] [0] [] [0] [] 1 ![1, H])
    (wfs : ScatterDims.WF ⟨2, ![N, H]⟩ ⟨2, ![E, 1]⟩ ⟨2, ![E, H]⟩ [1] [0] [0] 1)
    (Z : FVec Ideal ⟨2, ![N, H]⟩ .f32) (hZ : ∀ j, Z j = 0) (SRC DST : IVec ⟨2, ![E, 1]⟩ w)
    (X : (⟨2, ![N, K]⟩ : Shape).Idx → EReal) (Wl Wr : (⟨2, ![H, K]⟩ : Shape).Idx → EReal)
    (INV : (⟨2, ![N, 1]⟩ : Shape).Idx → EReal) (B : (⟨2, ![1, H]⟩ : Shape).Idx → EReal) (cnt : Fin N → EReal)
    (hINV : ∀ i : Fin N, INV (ix2 i 0) = Ideal.div 1 (max (cnt i) 1)) (i : Fin N) (h : Fin H) :
    epiLin (Host.scatterAdd (Cert.Lib.rowScatter N E H wfs) Z DST
        (Host.gather (Cert.Lib.rowGather N E H wfg) (projNT X Wl) SRC)) INV X Wr B (ix2 i h)
      = layerKer (inEdges N DST) (srcOf N hN SRC) cnt (cur X) (cur Wl) (cur Wr) (fun h => B (ix2 0 h)) i h := by
  unfold epiLin layerKer
  rw [Cert.Lib.rowScatterAdd_apply, hZ]
  simp only [Cert.Lib.rowGather_apply hN]
  show (0 + ∑ e ∈ inEdges N DST i, projNT X Wl (ix2 (srcOf N hN SRC e) h)) * INV (ix2 i 0) + B (ix2 0 h) + projNT X Wr (ix2 i h) = _
  rw [hINV]
  rfl

/-- The column of reciprocal counts: a vector `1 / max (count) 1` made a column reads that quotient at each row. -/
theorem invcol_apply {N : Nat} (ONE1 ONE2 : FVec Ideal ⟨1, ![N]⟩ .f32) (h1 : ∀ j, ONE1 j = 1) (h2 : ∀ j, ONE2 j = 1)
    (CNT : IVec ⟨1, ![N]⟩ 32) (hc : (⟨1, ![N]⟩ : Shape).ShapeCasts ⟨2, ![N, 1]⟩) (n : Fin N) :
    shapeCast ⟨2, ![N, 1]⟩ (Host.divf ONE1 (maximumf (sitofp .f32 CNT) ONE2)) hc (ix2 n 0)
      = Ideal.div 1 (max ((((CNT (ix1 n)).toInt : ℝ) : EReal)) 1) := by
  rw [shapeCast_apply _ hc (ix2 n 0) (ix1 n) (by
    rw [Shape.rowMajor_val_two, Shape.rowMajor_val_one]; show n.val = n.val * 1 + 0; omega)]
  show Ideal.div (ONE1 (ix1 n)) (max (((CNT (ix1 n)).toInt : ℝ) : EReal) (ONE2 (ix1 n))) = _
  rw [h1, h2]

end Cert.Sage

end
-- ==== Proof.KerValue.lean ====
/-
  The idealized kernel program's result, entry by entry.

  The program alternates stretches of host operations with four tiled regions. The first region projects the node
  features, `X W₁ₗᵀ`; a host stretch gathers the projected rows by each edge's source and accumulates them at each
  edge's destination, starting from zeros; the second region applies the node update `S ⊙ inv + b₁ + X W₁ᵣᵀ` and the
  rectifier, leaving the hidden features; the third and fourth regions and the stretch between them do the same to the
  hidden features with the second layer's weights, without the rectifier. Reading every buffer a region or a stretch
  consumes back to where it was made, each region's output array is one whole-array function of the arguments, and the
  tile update over "projected rows gathered by source and accumulated by destination" is the project-then-aggregate
  layer on the graph the edge list defines: the edges landing on node `i` are those whose destination word, read
  signed, is `i`; an edge brings the row its source word names, clamped into the array; and the column of reciprocal
  counts is `1 / max (#edges landing on i) 1`, the integer scatter of ones being that count. Composing the two layers
  gives the result array at `(n, h)` as the two-layer network `netKer` of the arguments (`result_apply`).
-/
import proofs.«162418_j19636590477698_2_alg».proof.Proof.KHost
import proofs.«162418_j19636590477698_2_alg».proof.Proof.KerRecords
import proofs.«162418_j19636590477698_2_alg».proof.Proof.KRegion0
import proofs.«162418_j19636590477698_2_alg».proof.Proof.KRegion1
import proofs.«162418_j19636590477698_2_alg».proof.Proof.KRegion2
import proofs.«162418_j19636590477698_2_alg».proof.Proof.KRegion3
import proofs.«162418_j19636590477698_2_alg».proof.Proof.Net
import Idealize.ShloMosaic.Lib.ValueLayout

set_option maxRecDepth 16384

noncomputable section

namespace Cert.KernelIdeal.KerValue

open Idealize.ShloMosaic Idealize.ShloMosaic.TcCoe Idealize.SL.Sem Idealize.ShloMosaic.StableHlo Idealize.ShloMosaic.ValueIdx
open Idealize.ShloMosaic.Pipeline (Dat Cfg Window)
open Cert.KernelIdeal Cert.KernelIdeal.Gen Cert.KernelIdeal.HostValue

variable (m : (ℓ : Loc nD τ sig) → Buf (Elt Ideal) ℓ) (ρ : Dev nD → PrngReg) (c : Dev nD)

/-! ## The aggregation the two host stretches perform -/

/-- The rows of `P` gathered by each edge's source and accumulated at each edge's destination, starting from zeros. -/
def aggr (a1 : IVec S2x640000 32) (P : FVec Ideal S40000x64 .f32) : FVec Ideal S40000x64 .f32 :=
  Host.scatterAdd scatter_S40000x64_S640000x1_S640000x64_1_0_0_1
    (broadcastInDim S40000x64 ![] bcast_S_S40000x64 (constant (F := Ideal) S_ .f32 0x00000000#32))
    (dstCol a1) (Host.gather gather_S40000x64_S640000x1_S640000x64_1_0_n_n_0_1_164 P (srcCol a1))

/-! ## What the second and third stretches of host operations write -/

theorem W3_v24 : W3 m ρ c (Proc.devRef .tc main_v24) = aggr (m ((c : Thread nD τ).loc main_arg1)) (W2 m ρ c (Proc.devRef .tc main_v14)) := by
  show StableHlo.after hostOps1 (W2 m ρ c) (Proc.devRef .tc main_v24) = _
  after_results
  rw [W2_v3, W1_v3, W2_v1, W1_v1]
  rfl

theorem W3_v25 : W3 m ρ c (Proc.devRef .tc main_v25) = shapeCast S1x64 (m ((c : Thread nD τ).loc main_arg3)) shapeCasts_S64_S1x64 := by
  show StableHlo.after hostOps1 (W2 m ρ c) (Proc.devRef .tc main_v25) = _
  after_results
  rw [W2_arg3, W1_arg3]
  rfl

theorem W6_v37 : W6 m ρ c (Proc.devRef .tc main_v37) = aggr (m ((c : Thread nD τ).loc main_arg1)) (W5 m ρ c (Proc.devRef .tc main_v27)) := by
  show StableHlo.after hostOps3 (W5 m ρ c) (Proc.devRef .tc main_v37) = _
  after_results
  rw [W5_v3, W4_v3, W3_v3, W2_v3, W1_v3, W5_v1, W4_v1, W3_v1, W2_v1, W1_v1]
  rfl

theorem W6_v38 : W6 m ρ c (Proc.devRef .tc main_v38) = shapeCast S1x64 (m ((c : Thread nD τ).loc main_arg6)) shapeCasts_S64_S1x64 := by
  show StableHlo.after hostOps3 (W5 m ρ c) (Proc.devRef .tc main_v38) = _
  after_results
  rw [W5_arg6, W4_arg6, W3_arg6, W2_arg6, W1_arg6]
  rfl

/-! ## The regions' outputs at the boundaries -/

theorem W2_v14 : W2 m ρ c (Proc.devRef .tc main_v14)
    = Cert.Sage.projNT (N := 40000) (K := 128) (H := 64) (m ((c : Thread nD τ).loc main_arg0)) (m ((c : Thread nD τ).loc main_arg2)) := by
  refine (W2_arr m ρ c 2).trans ((RegionValue.final0 (V1 m ρ) c).trans ?_)
  show Cert.Sage.projNT (N := 40000) (K := 128) (H := 64) (W1 m ρ c (Proc.devRef .tc main_arg0)) (W1 m ρ c (Proc.devRef .tc main_arg2)) = _
  rw [W1_arg0, W1_arg2]

theorem W4_v26 : W4 m ρ c (Proc.devRef .tc main_v26)
    = Cert.Sage.epiRelu (N := 40000) (K := 128) (H := 64) (W3 m ρ c (Proc.devRef .tc main_v24)) (invCol (m ((c : Thread nD τ).loc main_arg1))) (m ((c : Thread nD τ).loc main_arg0)) (m ((c : Thread nD τ).loc main_arg4)) (W3 m ρ c (Proc.devRef .tc main_v25)) := by
  refine (W4_arr m ρ c 5).trans ((RegionValue.final1 (V3 m ρ) c).trans ?_)
  show Cert.Sage.epiRelu (N := 40000) (K := 128) (H := 64) (W3 m ρ c (Proc.devRef .tc main_v24)) (W3 m ρ c (Proc.devRef .tc main_v13)) (W3 m ρ c (Proc.devRef .tc main_arg0)) (W3 m ρ c (Proc.devRef .tc main_arg4)) (W3 m ρ c (Proc.devRef .tc main_v25)) = _
  rw [W3_v13, W2_v13, W1_v13, W3_arg0, W2_arg0, W1_arg0, W3_arg4, W2_arg4, W1_arg4]

theorem W5_v27 : W5 m ρ c (Proc.devRef .tc main_v27)
    = Cert.Sage.projNT (N := 40000) (K := 64) (H := 64) (W4 m ρ c (Proc.devRef .tc main_v26)) (m ((c : Thread nD τ).loc main_arg5)) := by
  refine (W5_arr m ρ c 2).trans ((RegionValue.final2 (V4 m ρ) c).trans ?_)
  show Cert.Sage.projNT (N := 40000) (K := 64) (H := 64) (W4 m ρ c (Proc.devRef .tc main_v26)) (W4 m ρ c (Proc.devRef .tc main_arg5)) = _
  rw [W4_arg5, W3_arg5, W2_arg5, W1_arg5]

theorem W7_v39 : W7 m ρ c (Proc.devRef .tc main_v39)
    = Cert.Sage.epiLin (N := 40000) (K := 64) (H := 64) (W6 m ρ c (Proc.devRef .tc main_v37)) (invCol (m ((c : Thread nD τ).loc main_arg1))) (W4 m ρ c (Proc.devRef .tc main_v26)) (m ((c : Thread nD τ).loc main_arg7)) (W6 m ρ c (Proc.devRef .tc main_v38)) := by
  refine (W7_arr m ρ c 5).trans ((RegionValue.final3 (V6 m ρ) c).trans ?_)
  show Cert.Sage.epiLin (N := 40000) (K := 64) (H := 64) (W6 m ρ c (Proc.devRef .tc main_v37)) (W6 m ρ c (Proc.devRef .tc main_v13)) (W6 m ρ c (Proc.devRef .tc main_v26)) (W6 m ρ c (Proc.devRef .tc main_arg7)) (W6 m ρ c (Proc.devRef .tc main_v38)) = _
  rw [W6_v13, W5_v13, W4_v13, W3_v13, W2_v13, W1_v13, W6_v26, W5_v26, W6_arg7, W5_arg7, W4_arg7, W3_arg7, W2_arg7, W1_arg7]

/-! ## One layer: the tile update over the aggregated projected rows is the project-then-aggregate layer -/

/-- The column of reciprocal counts at row `i` is `1 / max (#edges landing on i) 1`: the integer scatter of ones counts
    the edges whose destination is `i` (fewer than `2 ^ 31` of them, so the 32-bit sum never wraps). -/
theorem invCol_apply (a1 : IVec S2x640000 32) (i : Fin 40000) :
    invCol a1 (ix2 i 0) = Ideal.div 1 (max (((((Cert.Sage.inEdges 40000 (dstCol a1) i).card : ℤ) : ℝ) : EReal)) 1) := by
  unfold invCol
  rw [Cert.Sage.invcol_apply _ _ (fun j => by show Ideal.ofBits .f32 0x3F800000#32 = 1; exact Cert.Sage.one_f32)
    (fun j => by show Ideal.ofBits .f32 0x3F800000#32 = 1; exact Cert.Sage.one_f32) (countVec a1) shapeCasts_S40000_S40000x1 i]
  have hcount : (countVec a1 (ix1 i)).toInt = ((Cert.Sage.inEdges 40000 (dstCol a1) i).card : Int) := by
    unfold countVec
    rw [scatterVec_eq]
    exact Cert.Lib.vecScatter_count (by norm_num) scatter_S40000_S640000x1_S640000_n_0_0_1_wf (dstCol a1) i
  rw [hcount]

/-- A layer: with the aggregated branch's projection `X Wlᵀ` gathered by source and accumulated by destination, the
    tile update `S ⊙ inv + b + X Wrᵀ` is, entry by entry, the project-then-aggregate layer of the graph the edge list
    defines. -/
theorem aggrLayer_apply {K : Nat} (a1 : IVec S2x640000 32) (X : (⟨2, ![40000, K]⟩ : Shape).Idx → EReal)
    (Wl Wr : (⟨2, ![64, K]⟩ : Shape).Idx → EReal) (bias : FVec Ideal S64 .f32) (n : Fin 40000) (h : Fin 64) :
    Cert.Sage.epiLin (N := 40000) (K := K) (H := 64) (aggr a1 (Cert.Sage.projNT (N := 40000) (K := K) (H := 64) X Wl)) (invCol a1) X Wr
        (shapeCast S1x64 bias shapeCasts_S64_S1x64) (ix2 n h)
      = Cert.Sage.layerKer (Cert.Sage.inEdges 40000 (dstCol a1)) (Cert.Sage.srcOf 40000 (by decide) (srcCol a1))
          (fun i => ((((Cert.Sage.inEdges 40000 (dstCol a1) i).card : ℤ) : ℝ) : EReal)) (Cert.Sage.cur X) (Cert.Sage.cur Wl) (Cert.Sage.cur Wr) (fun h => bias (ix1 h)) n h := by
  unfold aggr
  rw [scatter64_eq, gather64_eq]
  refine (Cert.Sage.kerLayer_apply (N := 40000) (E := 640000) (K := K) (H := 64) (w := 32) (by decide)
    gather_S40000x64_S640000x1_S640000x64_1_0_n_n_0_1_164_wf scatter_S40000x64_S640000x1_S640000x64_1_0_0_1_wf
    (broadcastInDim S40000x64 ![] bcast_S_S40000x64 (constant (F := Ideal) S_ .f32 0x00000000#32))
    (fun j => by show Ideal.ofBits .f32 0x00000000#32 = 0; exact Ideal.ofBits_zero_f32)
    (srcCol a1) (dstCol a1) X Wl Wr (invCol a1) (shapeCast S1x64 bias shapeCasts_S64_S1x64)
    (fun i => ((((Cert.Sage.inEdges 40000 (dstCol a1) i).card : ℤ) : ℝ) : EReal)) (invCol_apply a1) n h).trans ?_
  refine congrArg (fun b => Cert.Sage.layerKer _ _ _ _ _ _ b n h) (funext fun h' => ?_)
  exact shapeCast_a_1a_apply bias shapeCasts_S64_S1x64 0 h'

/-! ## The two layers -/

/-- The hidden features the second region leaves: the first layer, rectified. -/
theorem hidden_apply (n : Fin 40000) (k : Fin 64) :
    W4 m ρ c (Proc.devRef .tc main_v26) (ix2 n k)
      = max (Cert.Sage.layerKer (Cert.Sage.inEdges 40000 (dstCol (m ((c : Thread nD τ).loc main_arg1)))) (Cert.Sage.srcOf 40000 (by decide) (srcCol (m ((c : Thread nD τ).loc main_arg1))))
          (fun i => ((((Cert.Sage.inEdges 40000 (dstCol (m ((c : Thread nD τ).loc main_arg1))) i).card : ℤ) : ℝ) : EReal)) (Cert.Sage.cur (m ((c : Thread nD τ).loc main_arg0))) (Cert.Sage.cur (m ((c : Thread nD τ).loc main_arg2))) (Cert.Sage.cur (m ((c : Thread nD τ).loc main_arg4))) (fun h => (m ((c : Thread nD τ).loc main_arg3)) (ix1 h)) n k) 0 := by
  rw [W4_v26, W3_v24, W3_v25, W2_v14]
  unfold Cert.Sage.epiRelu
  show max (Cert.Sage.epiLin (N := 40000) (K := 128) (H := 64) _ _ _ _ _ (ix2 n k)) 0 = _
  rw [aggrLayer_apply]

/-- THE RESULT ARRAY of the idealized kernel program, entry by entry: the two-layer network, project-then-aggregate in
    both layers, on the graph the edge list defines. -/
theorem result_apply (n : Fin 40000) (h : Fin 64) :
    W7 (F := Ideal) m ρ c (Proc.devRef .tc main_v39) (ix2 n h)
      = Cert.Sage.netKer (Cert.Sage.inEdges 40000 (dstCol (m ((c : Thread nD τ).loc main_arg1)))) (Cert.Sage.srcOf 40000 (by decide) (srcCol (m ((c : Thread nD τ).loc main_arg1))))
          (fun i => ((((Cert.Sage.inEdges 40000 (dstCol (m ((c : Thread nD τ).loc main_arg1))) i).card : ℤ) : ℝ) : EReal))
          (Cert.Sage.cur (m ((c : Thread nD τ).loc main_arg0))) (Cert.Sage.cur (m ((c : Thread nD τ).loc main_arg2))) (Cert.Sage.cur (m ((c : Thread nD τ).loc main_arg4))) (fun h => (m ((c : Thread nD τ).loc main_arg3)) (ix1 h))
          (Cert.Sage.cur (m ((c : Thread nD τ).loc main_arg5))) (Cert.Sage.cur (m ((c : Thread nD τ).loc main_arg7))) (fun h => (m ((c : Thread nD τ).loc main_arg6)) (ix1 h)) n h := by
  rw [W7_v39, W6_v37, W6_v38, W5_v27, aggrLayer_apply]
  unfold Cert.Sage.netKer
  refine congrArg (fun f => Cert.Sage.layerKer _ _ _ f _ _ _ n h) (funext fun n' => funext fun k => ?_)
  exact hidden_apply m ρ c n' k

end Cert.KernelIdeal.KerValue

end
-- ==== Proof.RefRecords.lean ====
/-
  The reference program's gather and scatter dimension records are the one-index-column records: the same field
  lists, built from the program's own well-formedness facts.
-/
import proofs.«162418_j19636590477698_2_alg».proof.Proof.Gen.ReferenceIdeal
import proofs.«162418_j19636590477698_2_alg».proof.Proof.LibRowOps

set_option maxRecDepth 16384

noncomputable section

namespace Cert.ReferenceIdeal.RefValue

open Idealize.ShloMosaic Cert.ReferenceIdeal Cert.ReferenceIdeal.Facts₀

theorem gather128_eq : gather_S40000x128_S640000x1_S640000x128_1_0_n_n_0_1_1128
    = Cert.Lib.rowGather 40000 640000 128 gather_S40000x128_S640000x1_S640000x128_1_0_n_n_0_1_1128_wf := rfl
theorem scatter128_eq : scatter_S40000x128_S640000x1_S640000x128_1_0_0_1
    = Cert.Lib.rowScatter 40000 640000 128 scatter_S40000x128_S640000x1_S640000x128_1_0_0_1_wf := rfl
theorem scatterVec_eq : scatter_S40000_S640000x1_S640000_n_0_0_1
    = Cert.Lib.vecScatter 40000 640000 scatter_S40000_S640000x1_S640000_n_0_0_1_wf := rfl
theorem gather64_eq : gather_S40000x64_S640000x1_S640000x64_1_0_n_n_0_1_164
    = Cert.Lib.rowGather 40000 640000 64 gather_S40000x64_S640000x1_S640000x64_1_0_n_n_0_1_164_wf := rfl
theorem scatter64_eq : scatter_S40000x64_S640000x1_S640000x64_1_0_0_1
    = Cert.Lib.rowScatter 40000 640000 64 scatter_S40000x64_S640000x1_S640000x64_1_0_0_1_wf := rfl

end Cert.ReferenceIdeal.RefValue

end
-- ==== Proof.RefValue.lean ====
/-
  The reference program's result, entry by entry, is the aggregate-then-project network of the law.

  Read one operation at a time: the gathered features accumulated by destination into zeros are, at row `n` and
  column `k`, the sum over the edges landing on `n` of the source rows' features; the count is the same accumulation
  of ones; the quotient, the two matrix products (each against a transposed weight), the bias row and the rectifier are
  read at their coordinates. The second layer repeats the first on the hidden features with the same edge list.
-/
import proofs.«162418_j19636590477698_2_alg».proof.Proof.Gen.ReferenceIdeal.Read
import proofs.«162418_j19636590477698_2_alg».proof.Proof.Net
import proofs.«162418_j19636590477698_2_alg».proof.Proof.RefRecords

set_option maxRecDepth 16384

noncomputable section

namespace Cert.ReferenceIdeal.RefValue

open Idealize.ShloMosaic Idealize.ShloMosaic.ValueIdx Cert.ReferenceIdeal Cert.ReferenceIdeal.Read Cert.Sage
open Cert.ReferenceIdeal.Facts₀

variable (x0 : (⟨S40000x128, .f32⟩ : BufTy).Contents (Elt Ideal)) (x1 : (⟨S2x640000, .i32⟩ : BufTy).Contents (Elt Ideal))
  (x2 : (⟨S64x128, .f32⟩ : BufTy).Contents (Elt Ideal)) (x3 : (⟨S64, .f32⟩ : BufTy).Contents (Elt Ideal))
  (x4 : (⟨S64x128, .f32⟩ : BufTy).Contents (Elt Ideal)) (x5 : (⟨S64x64, .f32⟩ : BufTy).Contents (Elt Ideal))
  (x6 : (⟨S64, .f32⟩ : BufTy).Contents (Elt Ideal)) (x7 : (⟨S64x64, .f32⟩ : BufTy).Contents (Elt Ideal))

/-- The destination column of the edge list, and the source column (negative words wrapped once). -/
abbrev dstCol : IVec ⟨2, ![640000, 1]⟩ 32 := val_main_v12 (F := Ideal) x1
abbrev srcCol : IVec ⟨2, ![640000, 1]⟩ 32 := val_main_v9 (F := Ideal) x1

/-- The edges landing on a node, and the node an edge brings. -/
abbrev S (n : Fin 40000) : Finset (Fin 640000) := inEdges 40000 (dstCol x1) n
abbrev g (e : Fin 640000) : Fin 40000 := srcOf 40000 (by decide) (srcCol x1) e

/-- Layer 1's aggregated features. -/
theorem agg1 (n : Fin 40000) (k : Fin 128) :
    val_main_v13 (F := Ideal) x0 x1 (ix2 n k) = 0 + ∑ e ∈ S x1 n, x0 (ix2 (g x1 e) k) := by
  unfold val_main_v13 val_main_v10
  rw [scatter128_eq, gather128_eq, Cert.Lib.rowScatterAdd_apply, val_main_v11_apply, val_main_cst_apply,
    show FloatOps.ofBits (F := Ideal) .f32 0x00000000#32 = 0 from Ideal.ofBits_zero_f32]
  simp only [Cert.Lib.rowGather_apply (show 0 < 40000 by decide)]
  rfl

/-- Layer 1's divisor: the count of landing edges, at least one. -/
theorem cnt1 (n : Fin 40000) :
    val_main_v19 (F := Ideal) x1 (ix1 n) = max (0 + ∑ _e ∈ S x1 n, (1 : EReal)) 1 := by
  rw [val_main_v19_apply]
  unfold val_main_v17
  show max (Host.scatterAdd (F := Ideal) _ _ _ _ (ix1 n)) (val_main_v18 (F := Ideal) (ix1 n)) = _
  rw [scatterVec_eq, Cert.Lib.vecScatterAdd_apply, val_main_v15_apply, val_main_cst_2_apply,
    val_main_v18_apply, val_main_cst_3_apply]
  simp only [val_main_v14_apply, val_main_cst_1_apply]
  rw [show FloatOps.ofBits (F := Ideal) .f32 0x00000000#32 = 0 from Ideal.ofBits_zero_f32,
    show FloatOps.ofBits (F := Ideal) .f32 0x3F800000#32 = 1 from one_f32]
  rfl

/-! ## The generated index maps at coordinates -/

theorem lidx24 (n : Fin 40000) (h : Fin 64) (k : Fin 128) : lidx_main_v24 (ix2 n h) k = ix2 n k :=
  funext fun a => Fin.ext (by match a with | ⟨0, _⟩ => rfl | ⟨1, _⟩ => rfl)
theorem ridx24 (n : Fin 40000) (h : Fin 64) (k : Fin 128) : idx_main_v23 (ridx_main_v24 (ix2 n h) k) = ix2 h k :=
  funext fun a => Fin.ext (by match a with | ⟨0, _⟩ => rfl | ⟨1, _⟩ => rfl)
theorem idx21 (n : Fin 40000) (k : Fin 128) : idx_main_v20 (idx_main_v21 (ix2 n k)) = ix1 n :=
  funext fun a => Fin.ext (by match a with | ⟨0, _⟩ => rfl)
theorem idx26 (n : Fin 40000) (h : Fin 64) : idx_main_v25 (idx_main_v26 (ix2 n h)) = ix1 h :=
  funext fun a => Fin.ext (by match a with | ⟨0, _⟩ => rfl)
theorem lidx29 (n : Fin 40000) (h : Fin 64) (k : Fin 128) : lidx_main_v29 (ix2 n h) k = ix2 n k :=
  funext fun a => Fin.ext (by match a with | ⟨0, _⟩ => rfl | ⟨1, _⟩ => rfl)
theorem ridx29 (n : Fin 40000) (h : Fin 64) (k : Fin 128) : idx_main_v28 (ridx_main_v29 (ix2 n h) k) = ix2 h k :=
  funext fun a => Fin.ext (by match a with | ⟨0, _⟩ => rfl | ⟨1, _⟩ => rfl)
theorem lidx56 (n : Fin 40000) (h : Fin 64) (k : Fin 64) : lidx_main_v56 (ix2 n h) k = ix2 n k :=
  funext fun a => Fin.ext (by match a with | ⟨0, _⟩ => rfl | ⟨1, _⟩ => rfl)
theorem ridx56 (n : Fin 40000) (h : Fin 64) (k : Fin 64) : idx_main_v55 (ridx_main_v56 (ix2 n h) k) = ix2 h k :=
  funext fun a => Fin.ext (by match a with | ⟨0, _⟩ => rfl | ⟨1, _⟩ => rfl)
theorem idx53 (n : Fin 40000) (k : Fin 64) : idx_main_v52 (idx_main_v53 (ix2 n k)) = ix1 n :=
  funext fun a => Fin.ext (by match a with | ⟨0, _⟩ => rfl)
theorem idx58 (n : Fin 40000) (h : Fin 64) : idx_main_v57 (idx_main_v58 (ix2 n h)) = ix1 h :=
  funext fun a => Fin.ext (by match a with | ⟨0, _⟩ => rfl)
theorem lidx61 (n : Fin 40000) (h : Fin 64) (k : Fin 64) : lidx_main_v61 (ix2 n h) k = ix2 n k :=
  funext fun a => Fin.ext (by match a with | ⟨0, _⟩ => rfl | ⟨1, _⟩ => rfl)
theorem ridx61 (n : Fin 40000) (h : Fin 64) (k : Fin 64) : idx_main_v60 (ridx_main_v61 (ix2 n h) k) = ix2 h k :=
  funext fun a => Fin.ext (by match a with | ⟨0, _⟩ => rfl | ⟨1, _⟩ => rfl)

/-! ## Layer 1 -/

/-- One summand of the aggregated branch: the mean's entry times the weight's. -/
theorem term24 (n : Fin 40000) (h : Fin 64) (k : Fin 128) :
    (val_main_v22 (F := Ideal) x0 x1) (lidx_main_v24 (ix2 n h) k) * (val_main_v23 (F := Ideal) x2) (ridx_main_v24 (ix2 n h) k)
      = Ideal.div (0 + ∑ e ∈ S x1 n, x0 (ix2 (g x1 e) k)) (max (0 + ∑ _e ∈ S x1 n, (1 : EReal)) 1) * x2 (ix2 h k) := by
  rw [lidx24, val_main_v22_apply, agg1, val_main_v21_apply, val_main_v20_apply, idx21, cnt1, val_main_v23_apply, ridx24]
  rfl

/-- One summand of the skip branch. -/
theorem term29 (n : Fin 40000) (h : Fin 64) (k : Fin 128) :
    x0 (lidx_main_v29 (ix2 n h) k) * (val_main_v28 (F := Ideal) x4) (ridx_main_v29 (ix2 n h) k) = x0 (ix2 n k) * x4 (ix2 h k) := by
  rw [lidx29, val_main_v28_apply, ridx29]

/-- The bias row repeated down the nodes. -/
theorem bias26 (n : Fin 40000) (h : Fin 64) : val_main_v26 (F := Ideal) x3 (ix2 n h) = x3 (ix1 h) := by
  rw [val_main_v26_apply, val_main_v25_apply, idx26]

/-- Layer 1 before the rectifier is the aggregate-then-project layer on the node features. -/
theorem layer1 (n : Fin 40000) (h : Fin 64) :
    val_main_v30 (F := Ideal) x0 x1 x2 x3 x4 (ix2 n h)
      = layerRef (S x1) (g x1) (cur x0) (cur x2) (cur x4) (fun h => x3 (ix1 h)) n h := by
  rw [val_main_v30_apply, val_main_v27_apply, val_main_v24_apply, val_main_v29_apply, bias26,
    Finset.sum_congr rfl (fun k _ => term24 x0 x1 x2 n h k), Finset.sum_congr rfl (fun k _ => term29 x0 x4 n h k),
    Ideal.addf_def, Ideal.addf_def]
  rfl

/-- The hidden features: layer 1 through the rectifier. -/
theorem hidden (n : Fin 40000) (k : Fin 64) :
    val_main_v31 (F := Ideal) x0 x1 x2 x3 x4 (ix2 n k)
      = max (layerRef (S x1) (g x1) (cur x0) (cur x2) (cur x4) (fun h => x3 (ix1 h)) n k) 0 := by
  rw [val_main_v31_apply, val_main_call0_v0_apply, val_main_call0_cst_apply, layer1,
    show FloatOps.ofBits (F := Ideal) .f32 0x00000000#32 = 0 from Ideal.ofBits_zero_f32, Ideal.maximumf_def]

/-! ## Layer 2, on the hidden features, with the same edge list -/

theorem agg2 (n : Fin 40000) (k : Fin 64) :
    val_main_v45 (F := Ideal) x0 x1 x2 x3 x4 (ix2 n k)
      = 0 + ∑ e ∈ S x1 n, val_main_v31 (F := Ideal) x0 x1 x2 x3 x4 (ix2 (g x1 e) k) := by
  unfold val_main_v45 val_main_v42
  rw [scatter64_eq, gather64_eq, Cert.Lib.rowScatterAdd_apply, val_main_v43_apply, val_main_cst_6_apply,
    show FloatOps.ofBits (F := Ideal) .f32 0x00000000#32 = 0 from Ideal.ofBits_zero_f32]
  simp only [Cert.Lib.rowGather_apply (show 0 < 40000 by decide)]
  rfl

theorem cnt2 (n : Fin 40000) :
    val_main_v51 (F := Ideal) x1 (ix1 n) = max (0 + ∑ _e ∈ S x1 n, (1 : EReal)) 1 := by
  rw [val_main_v51_apply]
  unfold val_main_v49
  show max (Host.scatterAdd (F := Ideal) _ _ _ _ (ix1 n)) (val_main_v50 (F := Ideal) (ix1 n)) = _
  rw [scatterVec_eq, Cert.Lib.vecScatterAdd_apply, val_main_v47_apply, val_main_cst_8_apply,
    val_main_v50_apply, val_main_cst_9_apply]
  simp only [val_main_v46_apply, val_main_cst_7_apply]
  rw [show FloatOps.ofBits (F := Ideal) .f32 0x00000000#32 = 0 from Ideal.ofBits_zero_f32,
    show FloatOps.ofBits (F := Ideal) .f32 0x3F800000#32 = 1 from one_f32]
  rfl

theorem term56 (n : Fin 40000) (h : Fin 64) (k : Fin 64) :
    (val_main_v54 (F := Ideal) x0 x1 x2 x3 x4) (lidx_main_v56 (ix2 n h) k) * (val_main_v55 (F := Ideal) x5) (ridx_main_v56 (ix2 n h) k)
      = Ideal.div (0 + ∑ e ∈ S x1 n, val_main_v31 (F := Ideal) x0 x1 x2 x3 x4 (ix2 (g x1 e) k))
          (max (0 + ∑ _e ∈ S x1 n, (1 : EReal)) 1) * x5 (ix2 h k) := by
  rw [lidx56, val_main_v54_apply, agg2, val_main_v53_apply, val_main_v52_apply, idx53, cnt2, val_main_v55_apply, ridx56]
  rfl

theorem term61 (n : Fin 40000) (h : Fin 64) (k : Fin 64) :
    (val_main_v31 (F := Ideal) x0 x1 x2 x3 x4) (lidx_main_v61 (ix2 n h) k) * (val_main_v60 (F := Ideal) x7) (ridx_main_v61 (ix2 n h) k)
      = val_main_v31 (F := Ideal) x0 x1 x2 x3 x4 (ix2 n k) * x7 (ix2 h k) := by
  rw [lidx61, val_main_v60_apply, ridx61]

theorem bias58 (n : Fin 40000) (h : Fin 64) : val_main_v58 (F := Ideal) x6 (ix2 n h) = x6 (ix1 h) := by
  rw [val_main_v58_apply, val_main_v57_apply, idx58]

/-- Layer 2 is the aggregate-then-project layer on the hidden features. -/
theorem layer2 (n : Fin 40000) (h : Fin 64) :
    val_main_v62 (F := Ideal) x0 x1 x2 x3 x4 x5 x6 x7 (ix2 n h)
      = layerRef (S x1) (g x1) (cur (val_main_v31 (F := Ideal) x0 x1 x2 x3 x4)) (cur x5) (cur x7)
          (fun h => x6 (ix1 h)) n h := by
  rw [val_main_v62_apply, val_main_v59_apply, val_main_v56_apply, val_main_v61_apply, bias58,
    Finset.sum_congr rfl (fun k _ => term56 x0 x1 x2 x3 x4 x5 n h k),
    Finset.sum_congr rfl (fun k _ => term61 x0 x1 x2 x3 x4 x7 n h k), Ideal.addf_def, Ideal.addf_def]
  rfl

/-- THE REFERENCE'S RESULT at an entry: the two-layer aggregate-then-project network of the arguments. -/
theorem result_apply (n : Fin 40000) (h : Fin 64) :
    val_main_v62 (F := Ideal) x0 x1 x2 x3 x4 x5 x6 x7 (ix2 n h)
      = netRef (inEdges 40000 (val_main_v12 (F := Ideal) x1)) (srcOf 40000 (by decide) (val_main_v9 (F := Ideal) x1))
          (cur x0) (cur x2) (cur x4) (fun h => x3 (ix1 h)) (cur x5) (cur x7) (fun h => x6 (ix1 h)) n h := by
  rw [layer2]
  unfold netRef
  have hh : cur (val_main_v31 (F := Ideal) x0 x1 x2 x3 x4)
      = fun n k => max (layerRef (S x1) (g x1) (cur x0) (cur x2) (cur x4) (fun h => x3 (ix1 h)) n k) 0 := by
    funext n k; exact hidden x0 x1 x2 x3 x4 n k
  rw [hh]

end Cert.ReferenceIdeal.RefValue

end
-- ==== Proof.LibFiniteEntries.lean ====
/-
  Finite entries: from an and-reduction of |v| < +∞ to real numbers.

  A precondition "every entry of v is finite" is printed as the and-reduction, over all axes, of the entrywise
  comparison |v| < +∞, where |v| is max(v, −v) and +∞ is the f32 word 0x7F800000, and is asserted to be 1. Then the
  comparison is 1 at every entry, and an extended real whose absolute value is below +∞ is a real number. Stated for
  an array of any shape, so that one conjunct of a conjunction of such tests is read with one application.
-/
import Idealize.ShloMosaic.PureOps.Ideal
import Idealize.ShloMosaic.Lib.ReduceAll
import Idealize.ShloMosaic.Lib.ValueIdx

noncomputable section

namespace Cert.Lib

open Idealize.ShloMosaic Idealize.ShloMosaic.ValueIdx

/-- The scalar shape has one index. -/
instance scalarIdx_subsingleton : Subsingleton (⟨0, ![]⟩ : Shape).Idx := ⟨fun _ _ => funext fun d => d.elim0⟩

/-- An extended real whose absolute value max(v, −v) is below +∞ is a real number. -/
theorem exists_real_of_abs_lt_top (v : EReal) (h : max v (-v) < ⊤) : ∃ r : ℝ, v = (r : EReal) := by
  induction v using EReal.rec with
  | bot => simp at h
  | coe r => exact ⟨r, rfl⟩
  | top => simp at h

/-- On one value: the ordered comparison |v| < +∞ (the word 0x7F800000) coming out 1 says that v is a real number. -/
theorem real_of_abs_olt_inf (v : EReal)
    (h : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at h
  unfold Ideal.cmp at h
  refine exists_real_of_abs_lt_top v ?_
  by_contra hn
  simp [hn] at h

/-- One "all entries finite" test: if the and-reduction over all axes of |v| < +∞ (the bound a scalar constant repeated
    over the shape, the reduction started from the constant 1) is 1, every entry of v is a real number. -/
theorem real_of_all_finite {s : Shape} {axes : List (Fin s.rank)} (v : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (h : Host.reduce IntOp.andi (cmpf .olt (Host.absf v) (broadcastInDim s ![] hb (constant (F := Ideal) ⟨0, ![]⟩ .f32 0x7F800000#32)))
        (constantI ⟨0, ![]⟩ 1 1#1) hr hu ix0 = 1#1) (i : s.Idx) : ∃ r : ℝ, v i = (r : EReal) :=
  real_of_abs_olt_inf (v i) (Host.reduce_andi_all _ _ hr hu ix0 h i)

end Cert.Lib

end
-- ==== Proof.Finite.lean ====
/-
  Under the precondition every float argument is an array of real numbers.

  The precondition is a conjunction of seven tests, one per float argument (the node features, the two layers' weights
  and biases), each the and-reduction over the whole array of |v| < +∞, and it is asserted to be 1. A conjunction is 1
  exactly when its conjuncts are, and each test being 1 says every entry of that array is a real number.
-/
import proofs.«162418_j19636590477698_2_alg».proof.Pre_finite_inputs
import proofs.«162418_j19636590477698_2_alg».proof.Proof.LibFiniteEntries
import Idealize.ShloMosaic.Lib.Affine

noncomputable section

namespace Cert.Sage

open Idealize.ShloMosaic Idealize.ShloMosaic.ValueIdx Cert.Pre_finite_inputs

/-- Every entry of an array is a real number. -/
def AllReal {s : Shape} (v : s.Idx → EReal) : Prop := ∀ i, ∃ r : ℝ, v i = (r : EReal)

variable [hP : Cert.Pre_finite_inputs.Facts]

theorem reals_of_pre (a0 : FVec Ideal S40000x128 .f32) (a1 : IVec S2x640000 32) (a2 : FVec Ideal S64x128 .f32)
    (a3 : FVec Ideal S64 .f32) (a4 : FVec Ideal S64x128 .f32) (a5 : FVec Ideal S64x64 .f32) (a6 : FVec Ideal S64 .f32)
    (a7 : FVec Ideal S64x64 .f32)
    (h : Cert.Pre_finite_inputs.fn (F := Ideal) a0 a1 a2 a3 a4 a5 a6 a7 = fun _ => 1#1) :
    AllReal a0 ∧ AllReal a2 ∧ AllReal a3 ∧ AllReal a4 ∧ AllReal a5 ∧ AllReal a6 ∧ AllReal a7 := by
  have h0 := congrFun h ix0
  dsimp only [Cert.Pre_finite_inputs.fn, Cert.Pre_finite_inputs.fn_part1, andi] at h0
  simp only [IntOp.andi_eq_one] at h0
  obtain ⟨⟨⟨⟨⟨⟨t0, t2⟩, t3⟩, t4⟩, t5⟩, t6⟩, t7⟩ := h0
  exact ⟨Cert.Lib.real_of_all_finite _ _ _ _ t0, Cert.Lib.real_of_all_finite _ _ _ _ t2,
    Cert.Lib.real_of_all_finite _ _ _ _ t3, Cert.Lib.real_of_all_finite _ _ _ _ t4,
    Cert.Lib.real_of_all_finite _ _ _ _ t5, Cert.Lib.real_of_all_finite _ _ _ _ t6,
    Cert.Lib.real_of_all_finite _ _ _ _ t7⟩

end Cert.Sage

end
-- ==== Proof.Bridge.lean ====
/-
  The algebraic claim: from memories agreeing on the arguments, the idealized kernel and the idealized reference both
  run, and end with equal results.

  Both results are known entry by entry: the kernel's is the two-layer network evaluated project-then-aggregate, the
  reference's the same network evaluated aggregate-then-project, over the same graph — both programs build the same
  source and destination columns from the edge list, and the kernel's integer count of the edges landing on a node is
  the number of summands of the reference's sum of ones. Under the precondition every feature, weight and bias is a
  real number, and on real data the two orders of evaluation agree (the law). Finiteness is used exactly there: the
  exchange of the sums and the move of the reciprocal count across them fail at infinities.
-/
import proofs.«162418_j19636590477698_2_alg».proof.Defs
import proofs.«162418_j19636590477698_2_alg».proof.Proof.Gen.Pre_finite_inputs
import proofs.«162418_j19636590477698_2_alg».proof.Proof.KRun
import proofs.«162418_j19636590477698_2_alg».proof.Proof.KerValue
import proofs.«162418_j19636590477698_2_alg».proof.Proof.RefValue
import proofs.«162418_j19636590477698_2_alg».proof.Proof.Finite

set_option maxRecDepth 16384

noncomputable section

open Idealize.ShloMosaic Idealize.ShloMosaic.TcCoe Idealize.SL.Sem Idealize.ShloMosaic.ValueIdx

namespace Cert.Proof.Bridge

open Cert.Sage

/-- The two programs build the same destination column and the same source column from the edge list. -/
theorem dstCol_eq (a1 : IVec Cert.KernelIdeal.S2x640000 32) :
    Cert.KernelIdeal.HostValue.dstCol a1 = Cert.ReferenceIdeal.Read.val_main_v12 (F := Ideal) a1 := rfl
theorem srcCol_eq (a1 : IVec Cert.KernelIdeal.S2x640000 32) :
    Cert.KernelIdeal.HostValue.srcCol a1 = Cert.ReferenceIdeal.Read.val_main_v9 (F := Ideal) a1 := rfl

theorem algebraic : Cert.algebraic_KernelIdeal_ReferenceIdeal := by
  intro m ρ m' ρ' hpre hagree
  refine ⟨fun c => Cert.KernelIdeal.Gen.W7 (F := Ideal) m ρ c (Proc.devRef .tc Cert.KernelIdeal.main_v39),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v62_eq]
  obtain ⟨e0, e1, e2, e3, e4, e5, e6, e7⟩ := hagree c
  rw [e0, e1, e2, e3, e4, e5, e6, e7]
  -- every float argument is an array of reals
  obtain ⟨r0, r2, r3, r4, r5, r6, r7⟩ := Cert.Sage.reals_of_pre _ _ _ _ _ _ _ _ (hpre c)
  choose f0 hf0 using r0
  choose f2 hf2 using r2
  choose f3 hf3 using r3
  choose f4 hf4 using r4
  choose f5 hf5 using r5
  choose f6 hf6 using r6
  choose f7 hf7 using r7
  funext j
  obtain ⟨n, h, rfl⟩ : ∃ (n : Fin 40000) (h : Fin 64), j = ix2 n h := ⟨j 0, j 1, eq_ix2 j⟩
  show _ = Cert.KernelIdeal.Gen.W7 (F := Ideal) m ρ c (Proc.devRef .tc Cert.KernelIdeal.main_v39) (ix2 n h)
  rw [Cert.ReferenceIdeal.RefValue.result_apply, Cert.KernelIdeal.KerValue.result_apply, dstCol_eq, srcCol_eq]
  have c0 : cur (m ((c.tc : Thread Cert.KernelIdeal.nD Cert.KernelIdeal.τ).loc Cert.KernelIdeal.main_arg0)) = fun a b => ((f0 (ix2 a b) : ℝ) : EReal) := by
    funext a b; exact hf0 _
  have c2 : cur (m ((c.tc : Thread Cert.KernelIdeal.nD Cert.KernelIdeal.τ).loc Cert.KernelIdeal.main_arg2)) = fun a b => ((f2 (ix2 a b) : ℝ) : EReal) := by
    funext a b; exact hf2 _
  have c4 : cur (m ((c.tc : Thread Cert.KernelIdeal.nD Cert.KernelIdeal.τ).loc Cert.KernelIdeal.main_arg4)) = fun a b => ((f4 (ix2 a b) : ℝ) : EReal) := by
    funext a b; exact hf4 _
  have c5 : cur (m ((c.tc : Thread Cert.KernelIdeal.nD Cert.KernelIdeal.τ).loc Cert.KernelIdeal.main_arg5)) = fun a b => ((f5 (ix2 a b) : ℝ) : EReal) := by
    funext a b; exact hf5 _
  have c7 : cur (m ((c.tc : Thread Cert.KernelIdeal.nD Cert.KernelIdeal.τ).loc Cert.KernelIdeal.main_arg7)) = fun a b => ((f7 (ix2 a b) : ℝ) : EReal) := by
    funext a b; exact hf7 _
  have c3 : (fun h => m ((c.tc : Thread Cert.KernelIdeal.nD Cert.KernelIdeal.τ).loc Cert.KernelIdeal.main_arg3) (ix1 h)) = fun h => ((f3 (ix1 h) : ℝ) : EReal) := by
    funext a; exact hf3 _
  have c6 : (fun h => m ((c.tc : Thread Cert.KernelIdeal.nD Cert.KernelIdeal.τ).loc Cert.KernelIdeal.main_arg6) (ix1 h)) = fun h => ((f6 (ix1 h) : ℝ) : EReal) := by
    funext a; exact hf6 _
  rw [c0, c2, c4, c3, c5, c7, c6]
  -- the law, on the real data
  exact (congrFun (congrFun (netKer_eq_netRef _ _ (fun a b => f0 (ix2 a b)) (fun a b => f2 (ix2 a b)) (fun a b => f4 (ix2 a b))
    (fun a => f3 (ix1 a)) (fun a b => f5 (ix2 a b)) (fun a b => f7 (ix2 a b)) (fun a => f6 (ix1 a))) n) h).symm

end Cert.Proof.Bridge

end
-- ==== Proof.lean ====
/-
  The proof of `Cert.Claim`: a two-layer mean-aggregation graph network, the kernel against its plain reference.

  Each layer computes, at node `i`, `mean_{e → i} feat[src e] · W_lᵀ + b + feat[i] · W_rᵀ`, the mean dividing by
  `max (#edges into i) 1`, with a rectifier after the first layer. The reference aggregates the raw features, divides, and
  then multiplies by `W_l`; the kernel multiplies every node's features by `W_l` first (a tiled matrix product over blocks
  of 5000 nodes), gathers and accumulates the projected rows on the host, and finishes in a second tiled region with the
  product by the reciprocal count, the bias and the skip product. The two are one function of real inputs, by linearity
  of the aggregation: Proof/Law.lean. What the kernel's four regions leave in their output arrays is in
  Proof/KRegion0 … KRegion3.lean over the functions of Proof/Spec.lean; its run with the result named in Proof/KRun.lean; the
  buffers between the regions in Proof/KHost.lean; the result entry by entry in Proof/KerValue.lean (kernel) and
  Proof/RefValue.lean (reference), over the array lemmas of Proof/LibRowOps.lean and Proof/Net.lean; that the precondition
  makes every input a real in Proof/Finite.lean; the algebraic claim in Proof/Bridge.lean. The three frames are the
  programs' runs with the results dropped; the idealization rewrote nothing, so `preserves` is trivial.
-/
import proofs.«162418_j19636590477698_2_alg».proof.Defs
import proofs.«162418_j19636590477698_2_alg».proof.Proof.Gen.Kernel
import proofs.«162418_j19636590477698_2_alg».proof.Proof.Gen.Kernel.Skeleton
import proofs.«162418_j19636590477698_2_alg».proof.Proof.Gen.Kernel.Launch
import proofs.«162418_j19636590477698_2_alg».proof.Proof.Gen.Kernel.Points
import proofs.«162418_j19636590477698_2_alg».proof.Proof.Gen.Kernel.Frame
import proofs.«162418_j19636590477698_2_alg».proof.Proof.Gen.KernelIdeal
import proofs.«162418_j19636590477698_2_alg».proof.Proof.Gen.KernelIdeal.Skeleton
import proofs.«162418_j19636590477698_2_alg».proof.Proof.Gen.KernelIdeal.Launch
import proofs.«162418_j19636590477698_2_alg».proof.Proof.Gen.KernelIdeal.Points
import proofs.«162418_j19636590477698_2_alg».proof.Proof.Gen.KernelIdeal.Frame
import proofs.«162418_j19636590477698_2_alg».proof.Proof.Gen.ReferenceIdeal
import proofs.«162418_j19636590477698_2_alg».proof.Proof.Gen.ReferenceIdeal.Run
import proofs.«162418_j19636590477698_2_alg».proof.Proof.Gen.ReferenceIdeal.Read
import proofs.«162418_j19636590477698_2_alg».proof.Proof.Gen.Pre_finite_inputs
import proofs.«162418_j19636590477698_2_alg».proof.Proof.Bridge
import Idealize.ShloMosaic.Adequacy
import Idealize.ShloMosaic.Init

noncomputable section

namespace Cert.Proof

open Idealize.ShloMosaic Idealize.SL.Sem Cert.Kernel

/-- Each program's frame: its run, the result forgotten. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Proof.Bridge.algebraic⟩

end Cert.Proof

end
